-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 110
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x1, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S1x128, .f32⟩
  | .hbm, ⟨108, _⟩ => ⟨S100000x128, .f32⟩
  | .hbm, ⟨109, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v64) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v80) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v80) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v81) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S100000x128, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x128, .f32⟩
  | .hbm, ⟨104, _⟩ => ⟨S1700000x1, .f32⟩
  | .hbm, ⟨105, _⟩ => ⟨S1700000x128, .f32⟩
  | .hbm, ⟨106, _⟩ => ⟨S1700000x128, .f32⟩
  | .hbm, ⟨107, _⟩ => ⟨S_, .f32⟩
  | .hbm, ⟨108, _⟩ => ⟨S100000x128, .f32⟩
  | .hbm, ⟨109, _⟩ => ⟨S1700000x1, .i32⟩
  | .hbm, ⟨110, _⟩ => ⟨S100000x128, .f32⟩
  | .hbm, ⟨111, _⟩ => ⟨S1x128, .f32⟩
  | .hbm, ⟨112, _⟩ => ⟨S100000x128, .f32⟩
  | .hbm, ⟨113, _⟩ => ⟨S100000x128, .f32⟩
  | .hbm, ⟨114, _⟩ => ⟨S100000x128, .f32⟩
  | .hbm, ⟨115, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_13 : Ref sig .tc := ⟨.hbm, 95, rfl⟩
abbrev main_v70 : Ref sig .tc := ⟨.hbm, 96, rfl⟩
abbrev main_v71 : Ref sig .tc := ⟨.hbm, 97, rfl⟩
abbrev main_c_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.RunValue.lean ====
/-
  The idealized kernel's run, with the result array read.

  The program is seven kernel launches among stretches of host operations.  Its generated frame follows the
  buffer contents from the launch memory through every segment; after the last segment every unscoped buffer
  holds the last boundary's contents.  Read there, the result buffer holds what the last launch's write-backs
  leave, and every argument buffer holds what it was launched with.
-/
import proofs.«106614_j46462956208753_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents and the eight argument buffers end as launched. -/
theorem run_value : θ_run defs (onTc (τ := τ) (main (F := F))) ⟨m, fun _ => 0, ρ⟩ (fun r => ∀ c : Dev nD,
      r.2.mem ((c.tc : Thread nD τ).loc main_v81) = W13 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v81 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c)⟩)

end Cert.KernelIdeal.RunValue

end
-- ==== Proof.LibRowDot.lean ====
/-
  A plain two-dimensional product read one entry at a time, at the exact (extended-real) values.

  For the dimension numbers of an M×K by K×N product (contract the left operand's axis 1 with the right
  operand's axis 0, no batch axis) the contraction's index set is one axis of extent K, so the entry (p, q) of the
  product is the sum over k < K of  l(p, k) · r(k, q):  row p of the left operand times the matrix r, at
  column q.  Stated once for every M, K, N, for the vector unit's matrix product into a zero accumulator and for
  the host's dot_general; both are that same sum, so a product computed block of rows by block of rows and a
  product computed whole agree entry by entry.
-/
import Idealize.ShloMosaic.Lib.ValueIdx
import Idealize.ShloMosaic.PureOps.Ideal.Laws

noncomputable section

open scoped BigOperators

namespace Cert.RowDot

open Idealize.ShloMosaic Idealize.ShloMosaic.ValueIdx

/-- Entry q of (row · W) for a K×N matrix W:  the sum over k of row(k) · W(k, q). -/
def rowDot {K N : Nat} (row : Fin K → EReal) (W : (⟨2, ![K, N]⟩ : Shape).Idx → EReal) (q : Fin N) : EReal :=
  ∑ k : Fin K, row k * W (ix2 k q)

/-- Row p of an M×K array, as a function of the column. -/
def rowOf {M K : Nat} (x : (⟨2, ![M, K]⟩ : Shape).Idx → EReal) (p : Fin M) : Fin K → EReal := fun k => x (ix2 p k)

/-- The contraction shape of a plain product is one axis. -/
theorem plain_rank (M K N : Nat) : (DotDims.plain M K N).contr.rank = 1 := rfl

/-- The left operand's index at output index j and contraction position u keeps j's row. -/
theorem plain_lhs0 {M K N : Nat} (j : (⟨2, ![M, N]⟩ : Shape).Idx) (u : (DotDims.plain M K N).contr.Idx) :
    ((DotDims.plain M K N).lhsIdx j u 0).val = (j 0).val := by
  unfold DotDims.lhsIdx
  rw [dif_neg (show ¬((0 : Fin (⟨2, ![M, K]⟩ : Shape).rank) ∈ (DotDims.plain M K N).lhsBatch) from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs1 {M K N : Nat} (j : (⟨2, ![M, N]⟩ : Shape).Idx) (u : (DotDims.plain M K N).contr.Idx) :
    ((DotDims.plain M K N).lhsIdx j u 1).val = (u ⟨0, by rw [plain_rank]; exact Nat.one_pos⟩).val :=
  (DotDims.plain M K N).lhsIdx_val_of_single rfl j u

/-- The right operand's row is the contraction position. -/
theorem plain_rhs0 {M K N : Nat} (j : (⟨2, ![M, N]⟩ : Shape).Idx) (u : (DotDims.plain M K N).contr.Idx) :
    ((DotDims.plain M K N).rhsIdx j u 0).val = (u ⟨0, by rw [plain_rank]; exact Nat.one_pos⟩).val :=
  (DotDims.plain M K N).rhsIdx_val_of_single rfl j u

/-- The right operand's index keeps j's column. -/
theorem plain_rhs1 {M K N : Nat} (j : (⟨2, ![M, N]⟩ : Shape).Idx) (u : (DotDims.plain M K N).contr.Idx) :
    ((DotDims.plain M K N).rhsIdx j u 1).val = (j 1).val := by
  unfold DotDims.rhsIdx
  rw [dif_neg (show ¬((1 : Fin (⟨2, ![K, N]⟩ : Shape).rank) ∈ (DotDims.plain M K N).rhsBatch) from List.not_mem_nil),
    dif_pos (show (1 : Fin (⟨2, ![K, N]⟩ : Shape).rank) ∈ (DotDims.plain M K N).rhsNonContracting from List.mem_singleton.mpr rfl)]
  rfl

/-- The contraction's sum of a plain product, re-indexed by k < K: row (j 0) of l times r, at column (j 1). -/
theorem plain_contr_sum {M K N : Nat} (l : (⟨2, ![M, K]⟩ : Shape).Idx → EReal) (r : (⟨2, ![K, N]⟩ : Shape).Idx → EReal)
    (j : (⟨2, ![M, N]⟩ : Shape).Idx) :
    ∑ u : (DotDims.plain M K N).contr.Idx, l ((DotDims.plain M K N).lhsIdx j u) * r ((DotDims.plain M K N).rhsIdx j u)
      = rowDot (rowOf l (j 0)) r (j 1) := by
  unfold rowDot rowOf
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact plain_lhs0 j _
      | ⟨1, _⟩ => exact (plain_lhs1 j _).trans hk)
  have er : (DotDims.plain M K N).rhsIdx j ((contrEquiv1 (DotDims.plain M K N) K rfl rfl).symm k) = ix2 k (j 1) :=
    funext fun a => Fin.ext (by
      match a with
      | ⟨0, _⟩ => exact (plain_rhs0 j _).trans hk
      | ⟨1, _⟩ => exact plain_rhs1 j _)
  exact congrArg₂ (fun a b : EReal => a * b) (congrArg l el) (congrArg r er)

/-- The vector unit's matrix product into the zero accumulator, at an entry. -/
theorem matmul_plain_zero_apply {M K N : Nat} {φ₁ φ₂ : FTy} (prec : Option ContractPrecision)
    (lhs : FVec Ideal (⟨2, ![M, K]⟩ : Shape) φ₁) (rhs : FVec Ideal (⟨2, ![K, N]⟩ : Shape) φ₂) (j : (⟨2, ![M, N]⟩ : Shape).Idx) :
    FloatOps.matmul (DotDims.plain M K N) prec lhs rhs (constant (F := Ideal) (⟨2, ![M, N]⟩ : Shape) .f32 0x00000000#32) j
      = rowDot (rowOf lhs (j 0)) rhs (j 1) := by
  rw [Ideal.matmul_constant_zero_apply]
  exact plain_contr_sum lhs rhs j

/-- The host's dot_general, at an entry. -/
theorem dotGeneral_plain_apply {M K N : Nat} {φ₁ φ₂ : FTy} (prec : Option ContractPrecision) (sched : HostSchedule)
    (lhs : FVec Ideal (⟨2, ![M, K]⟩ : Shape) φ₁) (rhs : FVec Ideal (⟨2, ![K, N]⟩ : Shape) φ₂) (j : (⟨2, ![M, N]⟩ : Shape).Idx) :
    FloatOps.dotGeneral (DotDims.plain M K N) prec sched lhs rhs j = rowDot (rowOf lhs (j 0)) rhs (j 1) := by
  rw [Ideal.dotGeneral_apply]
  exact plain_contr_sum lhs rhs j

end Cert.RowDot

end
-- ==== Proof.LibRowBias.lean ====
/-
  Adding one row to every row of a matrix, and clamping the sum below, read one entry at a time at the exact
  (extended-real) values.

  For an M×N array A and a length-N vector b the entry (p, q) of "A plus b on every row" is A(p, q) + b(q).  Two
  spellings of it occur: the vector unit's, which keeps b as a 1×N row and spreads that row over the M rows, and the
  host's, which first recasts b as a 1×N row by a broadcast along a new leading axis and then spreads it.  Both are the
  one function `addRow A (asRow b)`, where `asRow b` is b recast as a 1×N row (a reshape: the row-major order of
  [N] and [1, N] is the same).  Clamping below at a constant z is max(·, z) entry by entry; a splat of z and a
  rank-0 constant spread over the array are the same constant array.
-/
import Idealize.ShloMosaic.Lib.ValueIdx
import Idealize.ShloMosaic.Lib.Pipeline.Value
import Idealize.ShloMosaic.PureOps.Ideal

noncomputable section

namespace Cert.RowBias

open Idealize.ShloMosaic Idealize.ShloMosaic.ValueIdx

variable {M N : Nat}

/-- Entry (p, q) of A plus the row b on every row:  A(p, q) + b(0, q). -/
def addRow (A : (⟨2, ![M, N]⟩ : Shape).Idx → EReal) (b : (⟨2, ![1, N]⟩ : Shape).Idx → EReal) :
    (⟨2, ![M, N]⟩ : Shape).Idx → EReal := fun i => A i + b (ix2 0 (i 1))

/-- Entry by entry, max(Y, z). -/
def clampBelow {S : Shape} (z : EReal) (Y : S.Idx → EReal) : S.Idx → EReal := fun i => max (Y i) z

/-- A 1×N row spread over M rows reads, at (p, q), the row at (0, q). -/
theorem spreadRow_apply {α : Type} (b : (⟨2, ![1, N]⟩ : Shape).Idx → α)
    (h : (⟨2, ![1, N]⟩ : Shape).Broadcasts ⟨2, ![M, N]⟩) (j : (⟨2, ![M, N]⟩ : Shape).Idx) :
    broadcastTo ⟨2, ![M, N]⟩ b h j = b (ix2 0 (j 1)) :=
  broadcastTo_apply b h j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- The host's spread of a 1×N row over M rows (both axes kept) reads the row at (0, q). -/
theorem spreadRowInDim_apply {α : Type} (b : (⟨2, ![1, N]⟩ : Shape).Idx → α)
    (h : (⟨2, ![1, N]⟩ : Shape).BroadcastsInDim ⟨2, ![M, N]⟩ ![0, 1]) (j : (⟨2, ![M, N]⟩ : Shape).Idx) :
    broadcastInDim ⟨2, ![M, N]⟩ ![0, 1] h b j = b (ix2 0 (j 1)) :=
  broadcastInDim_apply ![0, 1] h b j (ix2 0 (j 1)) (fun a => match a with
    | ⟨0, _⟩ => by show (0 : Nat) = if (1 : Nat) = 1 then 0 else _; rw [if_pos rfl]
    | ⟨1, _⟩ => by
        show (j 1).val = if N = 1 then 0 else (j 1).val
        split
        · have := idx2_lt1 j; omega
        · rfl)

/-- A length-N vector placed along the second axis of a 1×N row reads, at (0, q), the vector at q. -/
theorem rowInDim_apply {α : Type} (x : (⟨1, ![N]⟩ : Shape).Idx → α)
    (h : (⟨1, ![N]⟩ : Shape).BroadcastsInDim ⟨2, ![1, N]⟩ ![1]) (q : Fin N) :
    broadcastInDim ⟨2, ![1, N]⟩ ![1] h x (ix2 0 q) = x (ix1 q) :=
  broadcastInDim_apply ![1] h x (ix2 0 q) (ix1 q) (fun a => match a with
    | ⟨0, _⟩ => by
        show q.val = if N = 1 then 0 else q.val
        split
        · have := q.isLt; omega
        · rfl)

/-- A length-N vector recast as a 1×N row reads, at (0, q), the vector at q. -/
theorem asRow_apply {α : Type} (x : (⟨1, ![N]⟩ : Shape).Idx → α)
    (h : (⟨1, ![N]⟩ : Shape).ShapeCasts ⟨2, ![1, N]⟩) (q : Fin N) :
    shapeCast ⟨2, ![1, N]⟩ x h (ix2 0 q) = x (ix1 q) := by
  rw [shapeCast_addUnit_apply ![N] x h (ix2 0 q)]
  exact congrArg x (funext fun a => match a with | ⟨0, _⟩ => rfl)

/-- The vector unit's "A plus the row b": the operands recast to their own shapes, the row spread, the sum. -/
theorem addf_spread_eq (A : FVec Ideal (⟨2, ![M, N]⟩ : Shape) .f32) (b : FVec Ideal (⟨2, ![1, N]⟩ : Shape) .f32)
    (hA : (⟨2, ![M, N]⟩ : Shape).ShapeCasts ⟨2, ![M, N]⟩) (hb : (⟨2, ![1, N]⟩ : Shape).ShapeCasts ⟨2, ![1, N]⟩)
    (hB : (⟨2, ![1, N]⟩ : Shape).Broadcasts ⟨2, ![M, N]⟩) :
    addf (shapeCast ⟨2, ![M, N]⟩ A hA) (broadcastTo ⟨2, ![M, N]⟩ (shapeCast ⟨2, ![1, N]⟩ b hb) hB) = addRow A b := by
  rw [shapeCast_self, shapeCast_self]
  funext j
  show FloatOps.addf (A j) (broadcastTo ⟨2, ![M, N]⟩ b hB j) = A j + b (ix2 0 (j 1))
  rw [spreadRow_apply]
  rfl

/-- The host's "A plus the vector x on every row" is "A plus the row" of x recast as a 1×N row. -/
theorem addf_hostSpread_eq (A : FVec Ideal (⟨2, ![M, N]⟩ : Shape) .f32) (x : FVec Ideal (⟨1, ![N]⟩ : Shape) .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf A (broadcastInDim ⟨2, ![M, N]⟩ ![0, 1] h2 (broadcastInDim ⟨2, ![1, N]⟩ ![1] h1 x))
      = addRow A (shapeCast ⟨2, ![1, N]⟩ x hc) := by
  funext j
  obtain ⟨p, q, rfl⟩ : ∃ (p : Fin M) (q : Fin N), j = ix2 p q := ⟨j 0, j 1, eq_ix2 j⟩
  show FloatOps.addf (A (ix2 p q))
      (broadcastInDim ⟨2, ![M, N]⟩ ![0, 1] h2 (broadcastInDim ⟨2, ![1, N]⟩ ![1] h1 x) (ix2 p q))
    = A (ix2 p q) + shapeCast ⟨2, ![1, N]⟩ x hc (ix2 0 q)
  rw [spreadRowInDim_apply]
  show FloatOps.addf (A (ix2 p q)) (broadcastInDim ⟨2, ![1, N]⟩ ![1] h1 x (ix2 0 q))
    = A (ix2 p q) + shapeCast ⟨2, ![1, N]⟩ x hc (ix2 0 q)
  rw [rowInDim_apply, asRow_apply]
  rfl

/-- The vector unit's clamp: the maximum with a splat of the constant. -/
theorem maximumf_splat_eq {S : Shape} (Y : FVec Ideal S .f32) (bits : BitVec 32) :
    maximumf Y (broadcast S (Scalar.ofBits (F := Ideal) .f32 bits)) = clampBelow (Ideal.ofBits .f32 bits) Y := rfl

/-- The host's clamp: the maximum with the rank-0 constant spread over the array. -/
theorem maximumf_hostSplat_eq {S : Shape} (Y : FVec Ideal S .f32) (bits : BitVec 32)
    (h : (⟨0, ![]⟩ : Shape).BroadcastsInDim S ![]) :
    maximumf Y (broadcastInDim S ![] h (constant (F := Ideal) ⟨0, ![]⟩ .f32 bits)) = clampBelow (Ideal.ofBits .f32 bits) Y := rfl

end Cert.RowBias

end
-- ==== Proof.Pay.lean ====
/-
  What each of the three kinds of kernel body stores, as a function of the blocks it loads, at the exact
  (extended-real) values.

  * The product body rounds a 5000×128 block of rows and the 128×128 weight matrix to bf16 (the identity at
    the exact values) and multiplies them into a zero accumulator: entry (r, q) is the sum over k of
    block(r, k) · W(k, q).
  * The bias-and-residual body adds the 1×128 bias row to every row of the aggregated block and then adds
    the residual block.
  * The last body adds two blocks.
  A recast of a block to its own shape is the identity.
-/
import proofs.«106614_j46462956208753_1_alg».proof.Proof.Gen.KernelIdeal.Skeleton
import proofs.«106614_j46462956208753_1_alg».proof.Proof.LibRowDot
import proofs.«106614_j46462956208753_1_alg».proof.Proof.LibRowBias
import Idealize.ShloMosaic.Lib.Pipeline.Value

noncomputable section

namespace Cert.KernelIdeal.Pay

open Cert.KernelIdeal Cert.KernelIdeal.Gen Idealize.ShloMosaic Idealize.ShloMosaic.ValueIdx
open Cert.RowDot Cert.RowBias

/-- Launch 0's stored block, at an entry: row (j 0) of the loaded block times the weight matrix, at column (j 1). -/
theorem pay0_apply (x : Vec Ideal S5000x128 .f32) (w : Vec Ideal S128x128 .f32) (j : S5000x128.Idx) :
    k0_pay1 (F := Ideal) x w j = rowDot (rowOf x (j 0)) w (j 1) := by
  unfold k0_pay1
  exact matmul_plain_zero_apply (M := 5000) (K := 128) (N := 128) (φ₁ := .bf16) (φ₂ := .bf16) none x w j

/-- Launch 2's stored block, at an entry. -/
theorem pay2_apply (x : Vec Ideal S5000x128 .f32) (w : Vec Ideal S128x128 .f32) (j : S5000x128.Idx) :
    k2_pay1 (F := Ideal) x w j = rowDot (rowOf x (j 0)) w (j 1) := by
  unfold k2_pay1
  rw [shapeCast_self]
  exact matmul_plain_zero_apply (M := 5000) (K := 128) (N := 128) (φ₁ := .bf16) (φ₂ := .bf16) none x w j

/-- Launch 4's stored block, at an entry. -/
theorem pay4_apply (x : Vec Ideal S5000x128 .f32) (w : Vec Ideal S128x128 .f32) (j : S5000x128.Idx) :
    k4_pay1 (F := Ideal) x w j = rowDot (rowOf x (j 0)) w (j 1) := by
  unfold k4_pay1
  rw [shapeCast_self]
  exact matmul_plain_zero_apply (M := 5000) (K := 128) (N := 128) (φ₁ := .bf16) (φ₂ := .bf16) none x w j

/-- Launch 1's stored block: the aggregated block plus the bias row on every row, plus the residual block. -/
theorem pay1_eq (a : Vec Ideal S5000x128 .f32) (b : Vec Ideal S1x128 .f32) (r : Vec Ideal S5000x128 .f32) :
    k1_pay1 (F := Ideal) a b r = addf (addRow (M := 5000) (N := 128) a b) r := by
  unfold k1_pay1
  dsimp only
  rw [addf_spread_eq (M := 5000) (N := 128) a b]

/-- Launch 3's stored block. -/
theorem pay3_eq (a : Vec Ideal S5000x128 .f32) (b : Vec Ideal S1x128 .f32) (r : Vec Ideal S5000x128 .f32) :
    k3_pay1 (F := Ideal) a b r = addf (addRow (M := 5000) (N := 128) a b) r := by
  unfold k3_pay1
  dsimp only
  rw [addf_spread_eq (M := 5000) (N := 128) a b, shapeCast_self]

/-- Launch 5's stored block. -/
theorem pay5_eq (a : Vec Ideal S5000x128 .f32) (b : Vec Ideal S1x128 .f32) (r : Vec Ideal S5000x128 .f32) :
    k5_pay1 (F := Ideal) a b r = addf (addRow (M := 5000) (N := 128) a b) r := by
  unfold k5_pay1
  dsimp only
  rw [addf_spread_eq (M := 5000) (N := 128) a b, shapeCast_self]

/-- A block of "A plus the row B on every row, plus R" is the same expression of the blocks: if a block's entry y
    sits at the array's index i in the same column, the block values at y are the array values at i. -/
theorem addRow_block_eq (A R : FVec Ideal (⟨2, ![100000, 128]⟩ : Shape) .f32) (B : FVec Ideal (⟨2, ![1, 128]⟩ : Shape) .f32)
    (a r : FVec Ideal (⟨2, ![5000, 128]⟩ : Shape) .f32) (b : FVec Ideal (⟨2, ![1, 128]⟩ : Shape) .f32)
    (y : (⟨2, ![5000, 128]⟩ : Shape).Idx) (i : (⟨2, ![100000, 128]⟩ : Shape).Idx)
    (ha : a y = A i) (hr : r y = R i) (hb : b (ix2 0 (y 1)) = B (ix2 0 (i 1))) :
    addf (addRow (M := 5000) (N := 128) a b) r y = addf (addRow (M := 100000) (N := 128) A B) R i := by
  show FloatOps.addf (a y + b (ix2 0 (y 1))) (r y) = FloatOps.addf (A i + B (ix2 0 (i 1))) (R i)
  rw [ha, hr, hb]

/-- Launch 6's stored block: the sum of the two loaded blocks. -/
theorem pay6_eq (a : Vec Ideal S5000x128 .f32) (b : Vec Ideal S5000x128 .f32) :
    k6_pay1 (F := Ideal) a b = addf a b := by
  unfold k6_pay1
  rw [shapeCast_self]

end Cert.KernelIdeal.Pay

end
-- ==== Proof.Region0.lean ====
/-
  Launch 0: a 100000×128 array times a 128×128 weight matrix, computed block of 5000 rows by block.

  Grid point t loads rows 5000·t … 5000·t + 4999 of the left operand and the whole weight matrix, and stores
  their product into the same rows of the result.  Entry (r, q) of that block is the sum over k of
  left(5000·t + r, k) · W(k, q), which is entry (5000·t + r, q) of the product of the WHOLE left operand with W:
  a row of a product depends on that row of the left operand only.  The twenty blocks cover every row, so after
  the launch the result array is the whole product.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the left operand's and the result's windows sit at block row t, block column 0; the weight
    matrix's window is the whole matrix. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product of the two operand arrays as the launch finds them. -/
theorem flushed_eq (c : Dev nD) (t : Fin cfg0.N) :
    (dat0 V c).flushed 2 t = ((cfg0.win 2).blk t).view.read (Elt Ideal)
      (Host.dotGeneral (F := Ideal) (φ₁ := .f32) (φ₂ := .f32) (DotDims.plain 100000 128 128) none (V c main_arg0) (V c main_arg2)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨e0, e1, e2, e3, e4, e5⟩ := block_index t
  funext j
  obtain ⟨r, q, rfl⟩ : ∃ (r : Fin 5000) (q : Fin 128), j = ix2 r q := ⟨j 0, j 1, eq_ix2 j⟩
  refine (Pay.pay0_apply _ _ (ix2 r q)).trans ?_
  refine Eq.trans ?_ (dotGeneral_plain_apply (M := 100000) (K := 128) (N := 128) (φ₁ := .f32) (φ₂ := .f32) none .single
    (V c main_arg0) (V c main_arg2) (((cfg0.win 2).blk t).view.emb (ix2 r q))).symm
  unfold rowDot rowOf
  refine Finset.sum_congr rfl fun k _ => ?_
  have hx : ((cfg0.win 0).blk t).view.emb (ix2 r k)
      = ix2 ((((cfg0.win 2).blk t).view.emb (ix2 r q)) 0) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hw : ((cfg0.win 1).blk t).view.emb (ix2 k q)
      = ix2 k ((((cfg0.win 2).blk t).view.emb (ix2 r q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0) hx) (congrArg (V c main_arg2) hw)

/-- An index of the result array lies in point t's block iff each coordinate lies in the block's range. -/
theorem mem_blk (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Row r of the result lies in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  obtain ⟨e0, e1, e2, e3, e4, e5⟩ := block_index ⟨(i 0).val / 5000, by rw [hN]; omega⟩
  rw [mem_blk]
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- After the launch the result array is the whole product of the two operand arrays. -/
theorem final (c : Dev nD) :
    (dat0 V c).arrAt 2 cfg0.N
      = Host.dotGeneral (F := Ideal) (φ₁ := .f32) (φ₂ := .f32) (DotDims.plain 100000 128 128) none (V c main_arg0) (V c main_arg2) :=
  (dat0 V c).arrAt_eq_of_cover 2 _ (fun t _ => flushed_eq V c t) cover

end Cert.KernelIdeal.Region0

end
-- ==== Proof.Region1.lean ====
/-
  Launch 1: the aggregated 100000×128 array plus the 1×128 bias row on every row, plus the residual array,
  computed block of 5000 rows by block.

  Grid point t loads rows 5000·t … 5000·t + 4999 of the aggregated array and of the residual array, and the whole
  bias row, and stores aggregated + bias + residual into the same rows of the result.  Every block of the result is
  the corresponding block of ONE whole-array function, and the twenty blocks cover every row: after the launch the
  result array is that function of the three operand arrays.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.RowBias
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the aggregated array's, the residual's and the result's windows sit at block row t, block
    column 0; the bias row's window is the whole row. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- What point t writes back is block t of "aggregated plus bias row, plus residual" of the three operand arrays
    as the launch finds them. -/
theorem flushed_eq (c : Dev nD) (t : Fin cfg1.N) :
    (dat1 V c).flushed 3 t = ((cfg1.win 3).blk t).view.read (Elt Ideal)
      (addf (F := Ideal) (s := S100000x128) (φ := .f32) (addRow (M := 100000) (N := 128) (V c main_v46) (V c main_v47)) (V c main_arg0)) := by
  show (cfg1.win 3).cut (grid1.coords t) ((dat1 V c).after 3 t) = _
  rw [after1_3]
  unfold out1_3
  rw [View.canon_unit_zero off_zero]
  simp only [View.ld_unit_zero (S := S5000x128) off_zero, View.ld_unit_zero (S := S1x128) off_zero]
  obtain ⟨e0, e1, e2, e3, e4, e5, e6, e7⟩ := block_index t
  refine (Pay.pay1_eq _ _ _).trans ?_
  funext j
  obtain ⟨r, q, rfl⟩ : ∃ (r : Fin 5000) (q : Fin 128), j = ix2 r q := ⟨j 0, j 1, eq_ix2 j⟩
  have h0 : ((cfg1.win 0).blk t).view.emb (ix2 r q) = ((cfg1.win 3).blk t).view.emb (ix2 r q) := by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 128 + 1 * q.val = win1_3.index t (1 : Fin 2) * 128 + 1 * q.val; omega
  have h2 : ((cfg1.win 2).blk t).view.emb (ix2 r q) = ((cfg1.win 3).blk t).view.emb (ix2 r q) := by
    funext a; apply Fin.ext
    match a with
    | ⟨0, _⟩ => show win1_2.index t (0 : Fin 2) * 5000 + 1 * r.val = win1_3.index t (0 : Fin 2) * 5000 + 1 * r.val; omega
    | ⟨1, _⟩ => show win1_2.index t (1 : Fin 2) * 128 + 1 * q.val = win1_3.index t (1 : Fin 2) * 128 + 1 * q.val; omega
  have h1 : ((cfg1.win 1).blk t).view.emb (ix2 (0 : Fin 1) q)
      = ix2 (0 : Fin 1) ((((cfg1.win 3).blk t).view.emb (ix2 r q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_3.index t (1 : Fin 2) * 128 + 1 * q.val; omega
  exact Pay.addRow_block_eq (V c main_v46) (V c main_arg0) (V c main_v47) (iblk1 V c 0 t) (iblk1 V c 2 t) (iblk1 V c 1 t)
    (ix2 r q) (((cfg1.win 3).blk t).view.emb (ix2 r q))
    (congrArg (V c main_v46) h0) (congrArg (V c main_arg0) h2) (congrArg (V c main_v47) h1)

/-- An index of the result array lies in point t's block iff each coordinate lies in the block's range. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v48).slice (win1_3.rect t)).set ↔ _
  rw [View.set_slice_whole, Rect.mem_set_unit]
  exact Iff.rfl

/-- Row r of the result lies in the block of point r / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  obtain ⟨e0, e1, e2, e3, e4, e5, e6, e7⟩ := block_index ⟨(i 0).val / 5000, by rw [hN]; omega⟩
  rw [mem_blk]
  intro a
  match a with
  | ⟨0, _⟩ =>
    show win1_3.index _ (0 : Fin 2) * 5000 ≤ (i 0).val ∧ (i 0).val < win1_3.index _ (0 : Fin 2) * 5000 + 5000
    rw [e6]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e7]; omega

/-- After the launch the result array is "aggregated plus bias row, plus residual" of the three operand arrays. -/
theorem final (c : Dev nD) :
    (dat1 V c).arrAt 3 cfg1.N
      = addf (F := Ideal) (s := S100000x128) (φ := .f32) (addRow (M := 100000) (N := 128) (V c main_v46) (V c main_v47)) (V c main_arg0) :=
  (dat1 V c).arrAt_eq_of_cover 3 _ (fun t _ => flushed_eq V c t) cover

end Cert.KernelIdeal.Region1

end
-- ==== Proof.Region2.lean ====
/-
  Launch 2: a 100000×128 array times a 128×128 weight matrix, computed block of 5000 rows by block.

  Grid point t loads rows 5000·t … 5000·t + 4999 of the left operand and the whole weight matrix, and stores
  their product into the same rows of the result.  Entry (r, q) of that block is the sum over k of
  left(5000·t + r, k) · W(k, q), which is entry (5000·t + r, q) of the product of the WHOLE left operand with W:
  a row of a product depends on that row of the left operand only.  The twenty blocks cover every row, so after
  the launch the result array is the whole product.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the left operand's and the result's windows sit at block row t, block column 0; the weight
    matrix's window is the whole matrix. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product of the two operand arrays as the launch finds them. -/
theorem flushed_eq (c : Dev nD) (t : Fin cfg2.N) :
    (dat2 V c).flushed 2 t = ((cfg2.win 2).blk t).view.read (Elt Ideal)
      (Host.dotGeneral (F := Ideal) (φ₁ := .f32) (φ₂ := .f32) (DotDims.plain 100000 128 128) none (V c main_v48) (V c main_arg4)) := by
  show (cfg2.win 2).cut (grid2.coords t) ((dat2 V c).after 2 t) = _
  rw [after2_2]
  unfold out2_2
  rw [View.canon_unit_zero off_zero]
  simp only [View.ld_unit_zero (S := S5000x128) off_zero, View.ld_unit_zero (S := S128x128) off_zero]
  obtain ⟨e0, e1, e2, e3, e4, e5⟩ := block_index t
  funext j
  obtain ⟨r, q, rfl⟩ : ∃ (r : Fin 5000) (q : Fin 128), j = ix2 r q := ⟨j 0, j 1, eq_ix2 j⟩
  refine (Pay.pay2_apply _ _ (ix2 r q)).trans ?_
  refine Eq.trans ?_ (dotGeneral_plain_apply (M := 100000) (K := 128) (N := 128) (φ₁ := .f32) (φ₂ := .f32) none .single
    (V c main_v48) (V c main_arg4) (((cfg2.win 2).blk t).view.emb (ix2 r q))).symm
  unfold rowDot rowOf
  refine Finset.sum_congr rfl fun k _ => ?_
  have hx : ((cfg2.win 0).blk t).view.emb (ix2 r k)
      = ix2 ((((cfg2.win 2).blk t).view.emb (ix2 r q)) 0) k := by
    funext a; apply Fin.ext
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hw : ((cfg2.win 1).blk t).view.emb (ix2 k q)
      = ix2 k ((((cfg2.win 2).blk t).view.emb (ix2 r q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (fun a b : EReal => a * b) (congrArg (V c main_v48) hx) (congrArg (V c main_arg4) hw)

/-- An index of the result array lies in point t's block iff each coordinate lies in the block's range. -/
theorem mem_blk (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v49).slice (win2_2.rect t)).set ↔ _
  rw [View.set_slice_whole, Rect.mem_set_unit]
  exact Iff.rfl

/-- Row r of the result lies in the block of point r / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  obtain ⟨e0, e1, e2, e3, e4, e5⟩ := block_index ⟨(i 0).val / 5000, by rw [hN]; omega⟩
  rw [mem_blk]
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- After the launch the result array is the whole product of the two operand arrays. -/
theorem final (c : Dev nD) :
    (dat2 V c).arrAt 2 cfg2.N
      = Host.dotGeneral (F := Ideal) (φ₁ := .f32) (φ₂ := .f32) (DotDims.plain 100000 128 128) none (V c main_v48) (V c main_arg4) :=
  (dat2 V c).arrAt_eq_of_cover 2 _ (fun t _ => flushed_eq V c t) cover

end Cert.KernelIdeal.Region2

end
-- ==== Proof.Region3.lean ====
/-
  Launch 3: the aggregated 100000×128 array plus the 1×128 bias row on every row, plus the residual array,
  computed block of 5000 rows by block.

  Grid point t loads rows 5000·t … 5000·t + 4999 of the aggregated array and of the residual array, and the whole
  bias row, and stores aggregated + bias + residual into the same rows of the result.  Every block of the result is
  the corresponding block of ONE whole-array function, and the twenty blocks cover every row: after the launch the
  result array is that function of the three operand arrays.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region3

open Cert.KernelIdeal Cert.KernelIdeal.Gen Idealize.ShloMosaic Idealize.ShloMosaic.TcCoe Idealize.SL.Sem
open Idealize.ShloMosaic.ValueIdx Cert.RowBias
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the aggregated array's, the residual's and the result's windows sit at block row t, block
    column 0; the bias row's window is the whole row. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What point t writes back is block t of "aggregated plus bias row, plus residual" of the three operand arrays
    as the launch finds them. -/
theorem flushed_eq (c : Dev nD) (t : Fin cfg3.N) :
    (dat3 V c).flushed 3 t = ((cfg3.win 3).blk t).view.read (Elt Ideal)
      (addf (F := Ideal) (s := S100000x128) (φ := .f32) (addRow (M := 100000) (N := 128) (V c main_v62) (V c main_v63)) (V c main_v48)) := by
  show (cfg3.win 3).cut (grid3.coords t) ((dat3 V c).after 3 t) = _
  rw [after3_3]
  unfold out3_3
  rw [View.canon_unit_zero off_zero]
  simp only [View.ld_unit_zero (S := S5000x128) off_zero, View.ld_unit_zero (S := S1x128) off_zero]
  obtain ⟨e0, e1, e2, e3, e4, e5, e6, e7⟩ := block_index t
  refine (Pay.pay3_eq _ _ _).trans ?_
  funext j
  obtain ⟨r, q, rfl⟩ : ∃ (r : Fin 5000) (q : Fin 128), j = ix2 r q := ⟨j 0, j 1, eq_ix2 j⟩
  have h0 : ((cfg3.win 0).blk t).view.emb (ix2 r q) = ((cfg3.win 3).blk t).view.emb (ix2 r q) := by
    funext a; apply Fin.ext
    match a with
    | ⟨0, _⟩ => show win3_0.index t (0 : Fin 2) * 5000 + 1 * r.val = win3_3.index t (0 : Fin 2) * 5000 + 1 * r.val; omega
    | ⟨1, _⟩ => show win3_0.index t (1 : Fin 2) * 128 + 1 * q.val = win3_3.index t (1 : Fin 2) * 128 + 1 * q.val; omega
  have h2 : ((cfg3.win 2).blk t).view.emb (ix2 r q) = ((cfg3.win 3).blk t).view.emb (ix2 r q) := by
    funext a; apply Fin.ext
    match a with
    | ⟨0, _⟩ => show win3_2.index t (0 : Fin 2) * 5000 + 1 * r.val = win3_3.index t (0 : Fin 2) * 5000 + 1 * r.val; omega
    | ⟨1, _⟩ => show win3_2.index t (1 : Fin 2) * 128 + 1 * q.val = win3_3.index t (1 : Fin 2) * 128 + 1 * q.val; omega
  have h1 : ((cfg3.win 1).blk t).view.emb (ix2 (0 : Fin 1) q)
      = ix2 (0 : Fin 1) ((((cfg3.win 3).blk t).view.emb (ix2 r q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_3.index t (1 : Fin 2) * 128 + 1 * q.val; omega
  exact Pay.addRow_block_eq (V c main_v62) (V c main_v48) (V c main_v63) (iblk3 V c 0 t) (iblk3 V c 2 t) (iblk3 V c 1 t)
    (ix2 r q) (((cfg3.win 3).blk t).view.emb (ix2 r q))
    (congrArg (V c main_v62) h0) (congrArg (V c main_v48) h2) (congrArg (V c main_v63) h1)

/-- An index of the result array lies in point t's block iff each coordinate lies in the block's range. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v64).slice (win3_3.rect t)).set ↔ _
  rw [View.set_slice_whole, Rect.mem_set_unit]
  exact Iff.rfl

/-- Row r of the result lies in the block of point r / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_3 _, ?_⟩
  obtain ⟨e0, e1, e2, e3, e4, e5, e6, e7⟩ := block_index ⟨(i 0).val / 5000, by rw [hN]; omega⟩
  rw [mem_blk]
  intro a
  match a with
  | ⟨0, _⟩ =>
    show win3_3.index _ (0 : Fin 2) * 5000 ≤ (i 0).val ∧ (i 0).val < win3_3.index _ (0 : Fin 2) * 5000 + 5000
    rw [e6]; show (i 0).val / 5000 * 5000 ≤ (i 0).val ∧ (i 0).val < (i 0).val / 5000 * 5000 + 5000; omega
  | ⟨1, _⟩ =>
    show win3_3.index _ (1 : Fin 2) * 128 ≤ (i 1).val ∧ (i 1).val < win3_3.index _ (1 : Fin 2) * 128 + 128
    rw [e7]; omega

/-- After the launch the result array is "aggregated plus bias row, plus residual" of the three operand arrays. -/
theorem final (c : Dev nD) :
    (dat3 V c).arrAt 3 cfg3.N
      = addf (F := Ideal) (s := S100000x128) (φ := .f32) (addRow (M := 100000) (N := 128) (V c main_v62) (V c main_v63)) (V c main_v48) :=
  (dat3 V c).arrAt_eq_of_cover 3 _ (fun t _ => flushed_eq V c t) cover

end Cert.KernelIdeal.Region3

end
-- ==== Proof.Region4.lean ====
/-
  Launch 4: a 100000×128 array times a 128×128 weight matrix, computed block of 5000 rows by block.

  Grid point t loads rows 5000·t … 5000·t + 4999 of the left operand and the whole weight matrix, and stores
  their product into the same rows of the result.  Entry (r, q) of that block is the sum over k of
  left(5000·t + r, k) · W(k, q), which is entry (5000·t + r, q) of the product of the WHOLE left operand with W:
  a row of a product depends on that row of the left operand only.  The twenty blocks cover every row, so after
  the launch the result array is the whole product.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region4

open Cert.KernelIdeal Cert.KernelIdeal.Gen Idealize.ShloMosaic Idealize.ShloMosaic.TcCoe Idealize.SL.Sem
open Idealize.ShloMosaic.ValueIdx Cert.RowDot
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the left operand's and the result's windows sit at block row t, block column 0; the weight
    matrix's window is the whole matrix. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product of the two operand arrays as the launch finds them. -/
theorem flushed_eq (c : Dev nD) (t : Fin cfg4.N) :
    (dat4 V c).flushed 2 t = ((cfg4.win 2).blk t).view.read (Elt Ideal)
      (Host.dotGeneral (F := Ideal) (φ₁ := .f32) (φ₂ := .f32) (DotDims.plain 100000 128 128) none (V c main_v64) (V c main_arg6)) := by
  show (cfg4.win 2).cut (grid4.coords t) ((dat4 V c).after 2 t) = _
  rw [after4_2]
  unfold out4_2
  rw [View.canon_unit_zero off_zero]
  simp only [View.ld_unit_zero (S := S5000x128) off_zero, View.ld_unit_zero (S := S128x128) off_zero]
  obtain ⟨e0, e1, e2, e3, e4, e5⟩ := block_index t
  funext j
  obtain ⟨r, q, rfl⟩ : ∃ (r : Fin 5000) (q : Fin 128), j = ix2 r q := ⟨j 0, j 1, eq_ix2 j⟩
  refine (Pay.pay4_apply _ _ (ix2 r q)).trans ?_
  refine Eq.trans ?_ (dotGeneral_plain_apply (M := 100000) (K := 128) (N := 128) (φ₁ := .f32) (φ₂ := .f32) none .single
    (V c main_v64) (V c main_arg6) (((cfg4.win 2).blk t).view.emb (ix2 r q))).symm
  unfold rowDot rowOf
  refine Finset.sum_congr rfl fun k _ => ?_
  have hx : ((cfg4.win 0).blk t).view.emb (ix2 r k)
      = ix2 ((((cfg4.win 2).blk t).view.emb (ix2 r q)) 0) k := by
    funext a; apply Fin.ext
    match a with
    | ⟨0, _⟩ => show win4_0.index t (0 : Fin 2) * 5000 + 1 * r.val = win4_2.index t (0 : Fin 2) * 5000 + 1 * r.val; omega
    | ⟨1, _⟩ => show win4_0.index t (1 : Fin 2) * 128 + 1 * k.val = k.val; omega
  have hw : ((cfg4.win 1).blk t).view.emb (ix2 k q)
      = ix2 k ((((cfg4.win 2).blk t).view.emb (ix2 r q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  exact congrArg₂ (fun a b : EReal => a * b) (congrArg (V c main_v64) hx) (congrArg (V c main_arg6) hw)

/-- An index of the result array lies in point t's block iff each coordinate lies in the block's range. -/
theorem mem_blk (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v65).slice (win4_2.rect t)).set ↔ _
  rw [View.set_slice_whole, Rect.mem_set_unit]
  exact Iff.rfl

/-- Row r of the result lies in the block of point r / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_2 _, ?_⟩
  obtain ⟨e0, e1, e2, e3, e4, e5⟩ := block_index ⟨(i 0).val / 5000, by rw [hN]; omega⟩
  rw [mem_blk]
  intro a
  match a with
  | ⟨0, _⟩ =>
    show win4_2.index _ (0 : Fin 2) * 5000 ≤ (i 0).val ∧ (i 0).val < win4_2.index _ (0 : Fin 2) * 5000 + 5000
    rw [e4]; show (i 0).val / 5000 * 5000 ≤ (i 0).val ∧ (i 0).val < (i 0).val / 5000 * 5000 + 5000; omega
  | ⟨1, _⟩ =>
    show win4_2.index _ (1 : Fin 2) * 128 ≤ (i 1).val ∧ (i 1).val < win4_2.index _ (1 : Fin 2) * 128 + 128
    rw [e5]; omega

/-- After the launch the result array is the whole product of the two operand arrays. -/
theorem final (c : Dev nD) :
    (dat4 V c).arrAt 2 cfg4.N
      = Host.dotGeneral (F := Ideal) (φ₁ := .f32) (φ₂ := .f32) (DotDims.plain 100000 128 128) none (V c main_v64) (V c main_arg6) :=
  (dat4 V c).arrAt_eq_of_cover 2 _ (fun t _ => flushed_eq V c t) cover

end Cert.KernelIdeal.Region4

end
-- ==== Proof.Region5.lean ====
/-
  Launch 5: the aggregated 100000×128 array plus the 1×128 bias row on every row, plus the residual array,
  computed block of 5000 rows by block.

  Grid point t loads rows 5000·t … 5000·t + 4999 of the aggregated array and of the residual array, and the whole
  bias row, and stores aggregated + bias + residual into the same rows of the result.  Every block of the result is
  the corresponding block of ONE whole-array function, and the twenty blocks cover every row: after the launch the
  result array is that function of the three operand arrays.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region5

open Cert.KernelIdeal Cert.KernelIdeal.Gen Idealize.ShloMosaic Idealize.ShloMosaic.TcCoe Idealize.SL.Sem
open Idealize.ShloMosaic.ValueIdx Cert.RowBias
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t the aggregated array's, the residual's and the result's windows sit at block row t, block
    column 0; the bias row's window is the whole row. -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- What point t writes back is block t of "aggregated plus bias row, plus residual" of the three operand arrays
    as the launch finds them. -/
theorem flushed_eq (c : Dev nD) (t : Fin cfg5.N) :
    (dat5 V c).flushed 3 t = ((cfg5.win 3).blk t).view.read (Elt Ideal)
      (addf (F := Ideal) (s := S100000x128) (φ := .f32) (addRow (M := 100000) (N := 128) (V c main_v78) (V c main_v79)) (V c main_v64)) := by
  show (cfg5.win 3).cut (grid5.coords t) ((dat5 V c).after 3 t) = _
  rw [after5_3]
  unfold out5_3
  rw [View.canon_unit_zero off_zero]
  simp only [View.ld_unit_zero (S := S5000x128) off_zero, View.ld_unit_zero (S := S1x128) off_zero]
  obtain ⟨e0, e1, e2, e3, e4, e5, e6, e7⟩ := block_index t
  refine (Pay.pay5_eq _ _ _).trans ?_
  funext j
  obtain ⟨r, q, rfl⟩ : ∃ (r : Fin 5000) (q : Fin 128), j = ix2 r q := ⟨j 0, j 1, eq_ix2 j⟩
  have h0 : ((cfg5.win 0).blk t).view.emb (ix2 r q) = ((cfg5.win 3).blk t).view.emb (ix2 r q) := by
    funext a; apply Fin.ext
    match a with
    | ⟨0, _⟩ => show win5_0.index t (0 : Fin 2) * 5000 + 1 * r.val = win5_3.index t (0 : Fin 2) * 5000 + 1 * r.val; omega
    | ⟨1, _⟩ => show win5_0.index t (1 : Fin 2) * 128 + 1 * q.val = win5_3.index t (1 : Fin 2) * 128 + 1 * q.val; omega
  have h2 : ((cfg5.win 2).blk t).view.emb (ix2 r q) = ((cfg5.win 3).blk t).view.emb (ix2 r q) := by
    funext a; apply Fin.ext
    match a with
    | ⟨0, _⟩ => show win5_2.index t (0 : Fin 2) * 5000 + 1 * r.val = win5_3.index t (0 : Fin 2) * 5000 + 1 * r.val; omega
    | ⟨1, _⟩ => show win5_2.index t (1 : Fin 2) * 128 + 1 * q.val = win5_3.index t (1 : Fin 2) * 128 + 1 * q.val; omega
  have h1 : ((cfg5.win 1).blk t).view.emb (ix2 (0 : Fin 1) q)
      = ix2 (0 : Fin 1) ((((cfg5.win 3).blk t).view.emb (ix2 r q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_3.index t (1 : Fin 2) * 128 + 1 * q.val; omega
  exact Pay.addRow_block_eq (V c main_v78) (V c main_v64) (V c main_v79) (iblk5 V c 0 t) (iblk5 V c 2 t) (iblk5 V c 1 t)
    (ix2 r q) (((cfg5.win 3).blk t).view.emb (ix2 r q))
    (congrArg (V c main_v78) h0) (congrArg (V c main_v64) h2) (congrArg (V c main_v79) h1)

/-- An index of the result array lies in point t's block iff each coordinate lies in the block's range. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v80).slice (win5_3.rect t)).set ↔ _
  rw [View.set_slice_whole, Rect.mem_set_unit]
  exact Iff.rfl

/-- Row r of the result lies in the block of point r / 5000. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_3 _, ?_⟩
  obtain ⟨e0, e1, e2, e3, e4, e5, e6, e7⟩ := block_index ⟨(i 0).val / 5000, by rw [hN]; omega⟩
  rw [mem_blk]
  intro a
  match a with
  | ⟨0, _⟩ =>
    show win5_3.index _ (0 : Fin 2) * 5000 ≤ (i 0).val ∧ (i 0).val < win5_3.index _ (0 : Fin 2) * 5000 + 5000
    rw [e6]; show (i 0).val / 5000 * 5000 ≤ (i 0).val ∧ (i 0).val < (i 0).val / 5000 * 5000 + 5000; omega
  | ⟨1, _⟩ =>
    show win5_3.index _ (1 : Fin 2) * 128 ≤ (i 1).val ∧ (i 1).val < win5_3.index _ (1 : Fin 2) * 128 + 128
    rw [e7]; omega

/-- After the launch the result array is "aggregated plus bias row, plus residual" of the three operand arrays. -/
theorem final (c : Dev nD) :
    (dat5 V c).arrAt 3 cfg5.N
      = addf (F := Ideal) (s := S100000x128) (φ := .f32) (addRow (M := 100000) (N := 128) (V c main_v78) (V c main_v79)) (V c main_v64) :=
  (dat5 V c).arrAt_eq_of_cover 3 _ (fun t _ => flushed_eq V c t) cover

end Cert.KernelIdeal.Region5

end
-- ==== Proof.Region6.lean ====
/-
  Launch 6 (the last): the sum of two 100000×128 arrays, computed block of 5000 rows by block.

  Grid point t loads rows 5000·t … 5000·t + 4999 of both operands and stores their sum into the same rows of
  the result.  Every block of the result is therefore the corresponding block of ONE whole-array function, the
  entry-by-entry sum of the two operands, and the twenty blocks cover every row: after the launch the result
  array is that sum.
-/
import proofs.«106614_j46462956208753_1_alg».proof.Proof.Gen.KernelIdeal.Frame
import proofs.«106614_j46462956208753_1_alg».proof.Proof.Pay
import Idealize.ShloMosaic.Lib.Pipeline.Value

noncomputable section

namespace Cert.KernelIdeal.Region6

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem off_zero : (![0, 0] : Fin 2 → Nat) = fun _ => 0 := funext fun a => by fin_cases a <;> rfl

/-- At grid point t each of the three windows sits at block row t, block column 0. -/
theorem block_index : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- What point t writes back is block t of the sum of the two operand arrays as the launch finds them. -/
theorem flushed_eq (c : Dev nD) (t : Fin cfg6.N) :
    (dat6 V c).flushed 2 t = ((cfg6.win 2).blk t).view.read (Elt Ideal)
      (addf (F := Ideal) (s := S100000x128) (φ := .f32) (V c main_v80) (V c main_arg0)) := by
  show (cfg6.win 2).cut (grid6.coords t) ((dat6 V c).after 2 t) = _
  rw [after6_2]
  unfold out6_2
  rw [View.canon_unit_zero off_zero]
  simp only [View.ld_unit_zero (S := S5000x128) off_zero]
  rw [Pay.pay6_eq]
  obtain ⟨e0, e1, e2, e3, e4, e5⟩ := block_index t
  funext j
  show FloatOps.addf (F := Ideal) (φ := .f32) (V c main_v80 (((cfg6.win 0).blk t).view.emb j)) (V c main_arg0 (((cfg6.win 1).blk t).view.emb j))
    = FloatOps.addf (F := Ideal) (φ := .f32) (V c main_v80 (((cfg6.win 2).blk t).view.emb j)) (V c main_arg0 (((cfg6.win 2).blk t).view.emb j))
  have h0 : ((cfg6.win 0).blk t).view.emb j = ((cfg6.win 2).blk t).view.emb j := by
    funext a; apply Fin.ext
    match a with
    | ⟨0, _⟩ => show win6_0.index t (0 : Fin 2) * 5000 + 1 * (j 0).val = win6_2.index t (0 : Fin 2) * 5000 + 1 * (j 0).val; omega
    | ⟨1, _⟩ => show win6_0.index t (1 : Fin 2) * 128 + 1 * (j 1).val = win6_2.index t (1 : Fin 2) * 128 + 1 * (j 1).val; omega
  have h1 : ((cfg6.win 1).blk t).view.emb j = ((cfg6.win 2).blk t).view.emb j := by
    funext a; apply Fin.ext
    match a with
    | ⟨0, _⟩ => show win6_1.index t (0 : Fin 2) * 5000 + 1 * (j 0).val = win6_2.index t (0 : Fin 2) * 5000 + 1 * (j 0).val; omega
    | ⟨1, _⟩ => show win6_1.index t (1 : Fin 2) * 128 + 1 * (j 1).val = win6_2.index t (1 : Fin 2) * 128 + 1 * (j 1).val; omega
  rw [h0, h1]

/-- An index of the result array lies in point t's block iff each coordinate lies in the block's range. -/
theorem mem_blk (t : Fin cfg6.N) (i : S100000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v81).slice (win6_2.rect t)).set ↔ _
  rw [View.set_slice_whole, Rect.mem_set_unit]
  exact Iff.rfl

/-- Row r of the result lies in the block of point r / 5000. -/
theorem cover (i : S100000x128.Idx) :
    ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_2 _, ?_⟩
  obtain ⟨e0, e1, e2, e3, e4, e5⟩ := block_index ⟨(i 0).val / 5000, by rw [hN]; omega⟩
  rw [mem_blk]
  intro a
  match a with
  | ⟨0, _⟩ =>
    show win6_2.index _ (0 : Fin 2) * 5000 ≤ (i 0).val ∧ (i 0).val < win6_2.index _ (0 : Fin 2) * 5000 + 5000
    rw [e4]; show (i 0).val / 5000 * 5000 ≤ (i 0).val ∧ (i 0).val < (i 0).val / 5000 * 5000 + 5000; omega
  | ⟨1, _⟩ =>
    show win6_2.index _ (1 : Fin 2) * 128 ≤ (i 1).val ∧ (i 1).val < win6_2.index _ (1 : Fin 2) * 128 + 128
    rw [e5]; omega

/-- After the launch the result array is the entry-by-entry sum of the two operand arrays. -/
theorem final (c : Dev nD) :
    (dat6 V c).arrAt 2 cfg6.N = addf (F := Ideal) (s := S100000x128) (φ := .f32) (V c main_v80) (V c main_arg0) :=
  (dat6 V c).arrAt_eq_of_cover 2 _ (fun t _ => flushed_eq V c t) cover

end Cert.KernelIdeal.Region6

end
-- ==== Proof.Glue.lean ====
/-
  The graph-convolution network as whole-array functions of the eight argument arrays, in the host program's
  own operations, at the exact (extended-real) values.

  From the 2×E edge list: the source and destination vectors (the two rows of the list, each followed by
  0 … N−1 for the self loops), the edge weights (1 for an edge, 2 for a self loop), the degree (the weights
  summed into their destinations), its guarded inverse square root, and the edge norm
  dinv[src] · weight · dinv[dst].  One layer maps a node array x to
      scatter-add over destinations of ( (x · W)[src] · norm )  +  bias on every row  +  x,
  and the network is three layers followed by + x₀ (the input).
-/
import proofs.«106614_j46462956208753_1_alg».proof.Proof.Gen.ReferenceIdeal
import Idealize.ShloMosaic.PureOps.Ideal

noncomputable section

namespace Cert.Glue

open Cert.ReferenceIdeal Cert.ReferenceIdeal.Facts₀ Cert.ReferenceIdeal.Facts Idealize.ShloMosaic

variable (F : FTy → Type) [FloatOps F]

/-- An integer array of shape s. -/
abbrev TI (s : Shape) := IVec s 32
/-- A float array of shape s. -/
abbrev TF (F : FTy → Type) (s : Shape) := FVec F s .f32

/-- Row 0 of the edge list, then 0 … N−1: the source node of every edge and self loop. -/
def srcVec (e : TI S2x1600000) : TI S1700000 :=
  concatenate S1700000 0 [⟨S1600000, shapeCast _ (extractStridedSlice S1x1600000 ![0, 0] e slices_S2x1600000_S1x1600000_0_0) shapeCasts_S1x1600000_S1600000⟩, ⟨S100000, iotaInDim S100000 32 0⟩] concatenates_S1600000_S100000_S1700000_d0

/-- Row 1 of the edge list, then 0 … N−1: the destination node of every edge and self loop. -/
def dstVec (e : TI S2x1600000) : TI S1700000 :=
  concatenate S1700000 0 [⟨S1600000, shapeCast _ (extractStridedSlice S1x1600000 ![1, 0] e slices_S2x1600000_S1x1600000_1_0) shapeCasts_S1x1600000_S1600000⟩, ⟨S100000, iotaInDim S100000 32 0⟩] concatenates_S1600000_S100000_S1700000_d0

/-- The weights: 1 for each edge, 2 for each self loop. -/
def wts : TF F S1700000 :=
  concatenate S1700000 0 [⟨S1600000, broadcastInDim S1600000 ![] bcast_S_S1600000 (constant (F := F) S_ .f32 0x3F800000#32)⟩, ⟨S100000, broadcastInDim S100000 ![] bcast_S_S100000 (constant (F := F) S_ .f32 0x40000000#32)⟩] concatenates_S1600000_S100000_S1700000_d0

/-- The zero vector over the nodes. -/
def zeroNodes : TF F S100000 := broadcastInDim S100000 ![] bcast_S_S100000 (constant (F := F) S_ .f32 0x00000000#32)

/-- The degree of every node: the weights summed into their destinations. -/
def deg (e : TI S2x1600000) : TF F S100000 :=
  Host.scatterAdd (F := F) scatter_S100000_S1700000x1_S1700000_n_0_0_1 (zeroNodes F)
    (broadcastInDim S1700000x1 ![0] bcast_S1700000_S1700000x1_0 (dstVec e)) (wts F)

/-- deg^(−1/2) where the degree is positive, 0 elsewhere. -/
def dinv (e : TI S2x1600000) : TF F S100000 :=
  select (cmpf (F := F) .ogt (deg F e) (zeroNodes F)) (Host.rsqrt (F := F) (deg F e))
    (broadcastInDim S100000 ![] bcast_S_S100000 (id (constant (F := F) S_ .f32 0x00000000#32)))

/-- An index vector with negative entries wrapped by + N (the host's indexing convention). -/
def wrap (v : TI S1700000) : TI S1700000 :=
  select (cmpi .slt v (broadcastInDim S1700000 ![] bcast_S_S1700000 (constantI S_ 32 0#32)))
    (addi v (broadcastInDim S1700000 ![] bcast_S_S1700000 (constantI S_ 32 100000#32))) v

/-- The edge norm dinv[src] · weight · dinv[dst]. -/
def nrm (e : TI S2x1600000) : TF F S1700000 :=
  mulf (F := F) (mulf (F := F) (Host.gather gather_S100000_S1700000x1_S1700000_n_0_n_n_0_1_1 (dinv F e)
      (broadcastInDim S1700000x1 ![0] bcast_S1700000_S1700000x1_0 (wrap (srcVec e)))) (wts F))
    (Host.gather gather_S100000_S1700000x1_S1700000_n_0_n_n_0_1_1 (dinv F e)
      (broadcastInDim S1700000x1 ![0] bcast_S1700000_S1700000x1_0 (wrap (dstVec e))))

variable {F}

/-- The aggregation of a node array h along the edges: rows h[src] scaled by the norm, summed into dst. -/
def agg (h : TF F S100000x128) (s d : TI S1700000) (n : TF F S1700000) : TF F S100000x128 :=
  Host.scatterAdd (F := F) scatter_S100000x128_S1700000x1_S1700000x128_1_0_0_1
    (broadcastInDim S100000x128 ![] bcast_S_S100000x128 (constant (F := F) S_ .f32 0x00000000#32))
    (broadcastInDim S1700000x1 ![0] bcast_S1700000_S1700000x1_0 d)
    (mulf (F := F) (Host.gather gather_S100000x128_S1700000x1_S1700000x128_1_0_n_n_0_1_1128 h
        (broadcastInDim S1700000x1 ![0] bcast_S1700000_S1700000x1_0 (wrap s)))
      (broadcastInDim S1700000x128 ![0, 1] bcast_S1700000x1_S1700000x128_0_1
        (broadcastInDim S1700000x1 ![0] bcast_S1700000_S1700000x1_0 n)))

/-- One layer: aggregate x · W along the edges, add the bias on every row, add x. -/
def layer (x : TF F S100000x128) (w : TF F S128x128) (b : TF F S128) (s d : TI S1700000) (n : TF F S1700000) : TF F S100000x128 :=
  addf (F := F) (addf (F := F) (agg (Host.dotGeneral (F := F) dot_S100000x128_S128x128_S100000x128_1_0_0_1_n_n none x w) s d n)
    (broadcastInDim S100000x128 ![0, 1] bcast_S1x128_S100000x128_0_1 (broadcastInDim S1x128 ![1] bcast_S128_S1x128_1 b))) x

/-- The network: three layers, then + the input. -/
def net (x : TF F S100000x128) (e : TI S2x1600000) (w0 : TF F S128x128) (b0 : TF F S128) (w1 : TF F S128x128) (b1 : TF F S128)
    (w2 : TF F S128x128) (b2 : TF F S128) : TF F S100000x128 :=
  addf (F := F)
    (layer (layer (layer x w0 b0 (srcVec e) (dstVec e) (nrm F e)) w1 b1 (srcVec e) (dstVec e) (nrm F e)) w2 b2
      (srcVec e) (dstVec e) (nrm F e)) x

end Cert.Glue

end
-- ==== Proof.KLayer.lean ====
/-
  One layer as the kernel's launches compute it, and that it is the host program's layer.

  The kernel's program computes a layer as: the product x · W (launch), the aggregation along the edges (host
  operations), then  aggregated + bias row + x  (launch) with the bias recast as a 1×128 row.  The host program
  spreads the bias over the rows instead.  Adding a row to every row is the same function in both spellings, and the
  product's dimension numbers are the plain M×K by K×N ones in both programs, so the two layers are one function.
-/
import proofs.«106614_j46462956208753_1_alg».proof.Proof.Glue
import proofs.«106614_j46462956208753_1_alg».proof.Proof.LibRowBias

noncomputable section

namespace Cert.Glue

open Idealize.ShloMosaic Cert.RowBias

/-- The layer as the kernel's program computes it: the product by the plain dimension numbers, the aggregation,
    the bias as a 1×128 row added to every row, the residual. -/
def klayer (x : FVec Ideal (⟨2, ![100000, 128]⟩ : Shape) .f32) (w : FVec Ideal (⟨2, ![128, 128]⟩ : Shape) .f32)
    (b : FVec Ideal (⟨1, ![128]⟩ : Shape) .f32) (hc : (⟨1, ![128]⟩ : Shape).ShapeCasts ⟨2, ![1, 128]⟩)
    (s d : TI Cert.ReferenceIdeal.S1700000) (n : TF Ideal Cert.ReferenceIdeal.S1700000) : FVec Ideal (⟨2, ![100000, 128]⟩ : Shape) .f32 :=
  addf (F := Ideal) (addRow (M := 100000) (N := 128)
    (agg (Host.dotGeneral (F := Ideal) (φ₁ := .f32) (φ₂ := .f32) (DotDims.plain 100000 128 128) none x w) s d n)
    (shapeCast ⟨2, ![1, 128]⟩ b hc)) x

/-- The host program's product record is the plain one. -/
theorem dot_plain : Cert.ReferenceIdeal.dot_S100000x128_S128x128_S100000x128_1_0_0_1_n_n = DotDims.plain 100000 128 128 := rfl

/-- The kernel's layer is the host program's layer. -/
theorem klayer_eq (x : FVec Ideal (⟨2, ![100000, 128]⟩ : Shape) .f32) (w : FVec Ideal (⟨2, ![128, 128]⟩ : Shape) .f32)
    (b : FVec Ideal (⟨1, ![128]⟩ : Shape) .f32) (hc : (⟨1, ![128]⟩ : Shape).ShapeCasts ⟨2, ![1, 128]⟩)
    (s d : TI Cert.ReferenceIdeal.S1700000) (n : TF Ideal Cert.ReferenceIdeal.S1700000) :
    klayer x w b hc s d n = layer x w b s d n := by
  unfold klayer layer
  rw [dot_plain]
  exact congrArg (fun A => addf (F := Ideal) A x)
    (addf_hostSpread_eq (M := 100000) (N := 128) _ b Cert.ReferenceIdeal.Facts₀.bcast_S128_S1x128_1
      Cert.ReferenceIdeal.Facts₀.bcast_S1x128_S100000x128_0_1 hc).symm

end Cert.Glue

end
-- ==== Proof.Edge.lean ====
/-
  Before the first launch: the edge vectors and the edge norm, as the host operations compute them from the edge list.

  The first three stretches of host operations (the normalisation, with the "where" of the guarded inverse square root
  as a called function in the middle) write, among others, the source vector, the destination vector and the norm.
  Reading each operation's value off the operations before it gives the three as the functions of the edge list named
  in the network's definition.  Stated for any float instance: nothing here depends on what a float is.
-/
import proofs.«106614_j46462956208753_1_alg».proof.Proof.Gen.KernelIdeal.Frame
import proofs.«106614_j46462956208753_1_alg».proof.Proof.Glue
import Idealize.ShloMosaic.Lib.StableHlo.Run

set_option maxRecDepth 16384

noncomputable section

namespace Cert.KernelIdeal.Edge

open Cert.KernelIdeal Cert.KernelIdeal.Gen Idealize.ShloMosaic Idealize.ShloMosaic.TcCoe Idealize.SL.Sem
open Idealize.ShloMosaic.StableHlo

/-- Reads each remaining buffer (those inside the pieces of a concatenation) through the operations before it: an
    operation's result at its own buffer is its function's value, at any other buffer what was there before. -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable {F : FTy → Type} [FloatOps F]
variable (m : (ℓ : Loc nD τ sig) → Buf (Elt F) ℓ) (ρ : Dev nD → PrngReg) (c : Dev nD)

/-- The source vector. -/
theorem src_eq : W3 m ρ c (Proc.devRef .tc main_v5) = Cert.Glue.srcVec (m ((c : Thread nD τ).loc main_arg1)) := by
  show StableHlo.after hostOps0_2 (StableHlo.after hostOps0_1 (StableHlo.after hostOps0 (W0 m ρ c))) (Proc.devRef .tc main_v5) = _
  after_results_simp
  finish_reads
  rfl

/-- The destination vector. -/
theorem dst_eq : W3 m ρ c (Proc.devRef .tc main_v6) = Cert.Glue.dstVec (m ((c : Thread nD τ).loc main_arg1)) := by
  show StableHlo.after hostOps0_2 (StableHlo.after hostOps0_1 (StableHlo.after hostOps0 (W0 m ρ c))) (Proc.devRef .tc main_v6) = _
  after_results_simp
  finish_reads
  rfl

/-- The edge norm. -/
theorem nrm_eq : W3 m ρ c (Proc.devRef .tc main_v32) = Cert.Glue.nrm F (m ((c : Thread nD τ).loc main_arg1)) := by
  show StableHlo.after hostOps0_2 (StableHlo.after hostOps0_1 (StableHlo.after hostOps0 (W0 m ρ c))) (Proc.devRef .tc main_v32) = _
  after_results_simp
  finish_reads
  unfold Cert.Glue.nrm Cert.Glue.dinv Cert.Glue.deg Cert.Glue.wrap Cert.Glue.zeroNodes Cert.Glue.wts Cert.Glue.srcVec Cert.Glue.dstVec
  rfl

end Cert.KernelIdeal.Edge

end
-- ==== Proof.Chain.lean ====
/-
  The idealized kernel's buffers, boundary by boundary, as functions of the argument arrays.

  The program is: host operations (edge vectors, degree, norm) · product launch · host operations (gather, scale,
  scatter-add; the bias recast as a row) · bias-and-residual launch · the same three steps twice more · the final
  sum launch.  At every boundary between two segments each buffer that is read later holds a known function of the
  eight argument arrays:  a host stretch leaves the buffers it does not write as they were and writes its
  operations' values; a launch leaves every buffer that is not its output array as it was and its output array at
  the whole-array function of its operand arrays.  Followed from the launch memory to the last boundary, the result
  buffer holds  layer(layer(layer(x))) + x.
-/
import proofs.«106614_j46462956208753_1_alg».proof.Proof.Gen.KernelIdeal.Frame
import proofs.«106614_j46462956208753_1_alg».proof.Proof.Region0
import proofs.«106614_j46462956208753_1_alg».proof.Proof.Region1
import proofs.«106614_j46462956208753_1_alg».proof.Proof.Region2
import proofs.«106614_j46462956208753_1_alg».proof.Proof.Region3
import proofs.«106614_j46462956208753_1_alg».proof.Proof.Region4
import proofs.«106614_j46462956208753_1_alg».proof.Proof.Region5
import proofs.«106614_j46462956208753_1_alg».proof.Proof.Region6
import proofs.«106614_j46462956208753_1_alg».proof.Proof.KLayer
import proofs.«106614_j46462956208753_1_alg».proof.Proof.Edge
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo
open Idealize.ShloMosaic.Pipeline (Dat)

/-- A buffer that no operation of a host stretch writes keeps its contents across the stretch. -/
macro "host_keep" : tactic => `(tactic|
  (refine StableHlo.after_of_forall_not_mem (b := _) _ _ (List.forall_iff_forall_mem.mp ?_)
   simp only [hostOps0, hostOps0_1, hostOps0_2, hostOps1, hostOps3, hostOps5, List.flatten_cons, List.flatten_nil, List.append_nil, List.cons_append,
     List.nil_append, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

variable (m : (ℓ : Loc nD τ sig) → Buf (Elt Ideal) ℓ) (ρ : Dev nD → PrngReg) (c : Dev nD)

/-- The node array after the first layer. -/
def out1 : FVec Ideal (⟨2, ![100000, 128]⟩ : Shape) .f32 :=
  Cert.Glue.klayer (m ((c : Thread nD τ).loc main_arg0)) (m ((c : Thread nD τ).loc main_arg2)) (m ((c : Thread nD τ).loc main_arg3)) shapeCasts_S128_S1x128 (Cert.Glue.srcVec (m ((c : Thread nD τ).loc main_arg1))) (Cert.Glue.dstVec (m ((c : Thread nD τ).loc main_arg1))) (Cert.Glue.nrm Ideal (m ((c : Thread nD τ).loc main_arg1)))
/-- The node array after the second layer. -/
def out2 : FVec Ideal (⟨2, ![100000, 128]⟩ : Shape) .f32 :=
  Cert.Glue.klayer (out1 m c) (m ((c : Thread nD τ).loc main_arg4)) (m ((c : Thread nD τ).loc main_arg5)) shapeCasts_S128_S1x128 (Cert.Glue.srcVec (m ((c : Thread nD τ).loc main_arg1))) (Cert.Glue.dstVec (m ((c : Thread nD τ).loc main_arg1))) (Cert.Glue.nrm Ideal (m ((c : Thread nD τ).loc main_arg1)))
/-- The node array after the third layer. -/
def out3 : FVec Ideal (⟨2, ![100000, 128]⟩ : Shape) .f32 :=
  Cert.Glue.klayer (out2 m c) (m ((c : Thread nD τ).loc main_arg6)) (m ((c : Thread nD τ).loc main_arg7)) shapeCasts_S128_S1x128 (Cert.Glue.srcVec (m ((c : Thread nD τ).loc main_arg1))) (Cert.Glue.dstVec (m ((c : Thread nD τ).loc main_arg1))) (Cert.Glue.nrm Ideal (m ((c : Thread nD τ).loc main_arg1)))

/-! ## Before the first launch: the arguments as launched, the edge vectors and the norm computed from the edge list -/

theorem s3_arg0 : W3 m ρ c (Proc.devRef .tc main_arg0) = m ((c : Thread nD τ).loc main_arg0) :=
  (by host_keep : W3 m ρ c (Proc.devRef .tc main_arg0) = W2 m ρ c (Proc.devRef .tc main_arg0)).trans ((by host_keep : W2 m ρ c (Proc.devRef .tc main_arg0) = W1 m ρ c (Proc.devRef .tc main_arg0)).trans ((by host_keep : W1 m ρ c (Proc.devRef .tc main_arg0) = W0 m ρ c (Proc.devRef .tc main_arg0)).trans rfl))
theorem s3_arg2 : W3 m ρ c (Proc.devRef .tc main_arg2) = m ((c : Thread nD τ).loc main_arg2) :=
  (by host_keep : W3 m ρ c (Proc.devRef .tc main_arg2) = W2 m ρ c (Proc.devRef .tc main_arg2)).trans ((by host_keep : W2 m ρ c (Proc.devRef .tc main_arg2) = W1 m ρ c (Proc.devRef .tc main_arg2)).trans ((by host_keep : W1 m ρ c (Proc.devRef .tc main_arg2) = W0 m ρ c (Proc.devRef .tc main_arg2)).trans rfl))
theorem s3_arg3 : W3 m ρ c (Proc.devRef .tc main_arg3) = m ((c : Thread nD τ).loc main_arg3) :=
  (by host_keep : W3 m ρ c (Proc.devRef .tc main_arg3) = W2 m ρ c (Proc.devRef .tc main_arg3)).trans ((by host_keep : W2 m ρ c (Proc.devRef .tc main_arg3) = W1 m ρ c (Proc.devRef .tc main_arg3)).trans ((by host_keep : W1 m ρ c (Proc.devRef .tc main_arg3) = W0 m ρ c (Proc.devRef .tc main_arg3)).trans rfl))
theorem s3_arg4 : W3 m ρ c (Proc.devRef .tc main_arg4) = m ((c : Thread nD τ).loc main_arg4) :=
  (by host_keep : W3 m ρ c (Proc.devRef .tc main_arg4) = W2 m ρ c (Proc.devRef .tc main_arg4)).trans ((by host_keep : W2 m ρ c (Proc.devRef .tc main_arg4) = W1 m ρ c (Proc.devRef .tc main_arg4)).trans ((by host_keep : W1 m ρ c (Proc.devRef .tc main_arg4) = W0 m ρ c (Proc.devRef .tc main_arg4)).trans rfl))
theorem s3_arg5 : W3 m ρ c (Proc.devRef .tc main_arg5) = m ((c : Thread nD τ).loc main_arg5) :=
  (by host_keep : W3 m ρ c (Proc.devRef .tc main_arg5) = W2 m ρ c (Proc.devRef .tc main_arg5)).trans ((by host_keep : W2 m ρ c (Proc.devRef .tc main_arg5) = W1 m ρ c (Proc.devRef .tc main_arg5)).trans ((by host_keep : W1 m ρ c (Proc.devRef .tc main_arg5) = W0 m ρ c (Proc.devRef .tc main_arg5)).trans rfl))
theorem s3_arg6 : W3 m ρ c (Proc.devRef .tc main_arg6) = m ((c : Thread nD τ).loc main_arg6) :=
  (by host_keep : W3 m ρ c (Proc.devRef .tc main_arg6) = W2 m ρ c (Proc.devRef .tc main_arg6)).trans ((by host_keep : W2 m ρ c (Proc.devRef .tc main_arg6) = W1 m ρ c (Proc.devRef .tc main_arg6)).trans ((by host_keep : W1 m ρ c (Proc.devRef .tc main_arg6) = W0 m ρ c (Proc.devRef .tc main_arg6)).trans rfl))
theorem s3_arg7 : W3 m ρ c (Proc.devRef .tc main_arg7) = m ((c : Thread nD τ).loc main_arg7) :=
  (by host_keep : W3 m ρ c (Proc.devRef .tc main_arg7) = W2 m ρ c (Proc.devRef .tc main_arg7)).trans ((by host_keep : W2 m ρ c (Proc.devRef .tc main_arg7) = W1 m ρ c (Proc.devRef .tc main_arg7)).trans ((by host_keep : W1 m ρ c (Proc.devRef .tc main_arg7) = W0 m ρ c (Proc.devRef .tc main_arg7)).trans rfl))
theorem s3_v5 : W3 m ρ c (Proc.devRef .tc main_v5) = Cert.Glue.srcVec (m ((c : Thread nD τ).loc main_arg1)) := Edge.src_eq m ρ c
theorem s3_v6 : W3 m ρ c (Proc.devRef .tc main_v6) = Cert.Glue.dstVec (m ((c : Thread nD τ).loc main_arg1)) := Edge.dst_eq m ρ c
theorem s3_v32 : W3 m ρ c (Proc.devRef .tc main_v32) = Cert.Glue.nrm Ideal (m ((c : Thread nD τ).loc main_arg1)) := Edge.nrm_eq m ρ c

/-! ## After launch 0 -/

theorem s4_arg0 : W4 m ρ c (Proc.devRef .tc main_arg0) = m ((c : Thread nD τ).loc main_arg0) :=
  (W4_arr m ρ c 0).trans (((dat0 (V3 m ρ) c).arrAt_in 0 rfl _).trans ((A_eq0 (V3 m ρ) c 0).trans (s3_arg0 m ρ c)))
theorem s4_arg3 : W4 m ρ c (Proc.devRef .tc main_arg3) = m ((c : Thread nD τ).loc main_arg3) :=
  (W4_of_ne m ρ c main_arg3 (by decide)).trans (s3_arg3 m ρ c)
theorem s4_arg4 : W4 m ρ c (Proc.devRef .tc main_arg4) = m ((c : Thread nD τ).loc main_arg4) :=
  (W4_of_ne m ρ c main_arg4 (by decide)).trans (s3_arg4 m ρ c)
theorem s4_arg5 : W4 m ρ c (Proc.devRef .tc main_arg5) = m ((c : Thread nD τ).loc main_arg5) :=
  (W4_of_ne m ρ c main_arg5 (by decide)).trans (s3_arg5 m ρ c)
theorem s4_arg6 : W4 m ρ c (Proc.devRef .tc main_arg6) = m ((c : Thread nD τ).loc main_arg6) :=
  (W4_of_ne m ρ c main_arg6 (by decide)).trans (s3_arg6 m ρ c)
theorem s4_arg7 : W4 m ρ c (Proc.devRef .tc main_arg7) = m ((c : Thread nD τ).loc main_arg7) :=
  (W4_of_ne m ρ c main_arg7 (by decide)).trans (s3_arg7 m ρ c)
theorem s4_v5 : W4 m ρ c (Proc.devRef .tc main_v5) = Cert.Glue.srcVec (m ((c : Thread nD τ).loc main_arg1)) :=
  (W4_of_ne m ρ c main_v5 (by decide)).trans (s3_v5 m ρ c)
theorem s4_v6 : W4 m ρ c (Proc.devRef .tc main_v6) = Cert.Glue.dstVec (m ((c : Thread nD τ).loc main_arg1)) :=
  (W4_of_ne m ρ c main_v6 (by decide)).trans (s3_v6 m ρ c)
theorem s4_v32 : W4 m ρ c (Proc.devRef .tc main_v32) = Cert.Glue.nrm Ideal (m ((c : Thread nD τ).loc main_arg1)) :=
  (W4_of_ne m ρ c main_v32 (by decide)).trans (s3_v32 m ρ c)
theorem s4_v33 : W4 m ρ c (Proc.devRef .tc main_v33) = Host.dotGeneral (F := Ideal) (φ₁ := .f32) (φ₂ := .f32) (DotDims.plain 100000 128 128) none (m ((c : Thread nD τ).loc main_arg0)) (m ((c : Thread nD τ).loc main_arg2)) := by
  refine (W4_arr m ρ c 2).trans ((Region0.final (V3 m ρ) c).trans ?_)
  show Host.dotGeneral (F := Ideal) (φ₁ := .f32) (φ₂ := .f32) (DotDims.plain 100000 128 128) none (W3 m ρ c (Proc.devRef .tc main_arg0)) (W3 m ρ c (Proc.devRef .tc main_arg2)) = _
  rw [s3_arg0, s3_arg2]

/-! ## After the host operations between launches 0 and 1 -/

theorem s5_arg0 : W5 m ρ c (Proc.devRef .tc main_arg0) = m ((c : Thread nD τ).loc main_arg0) :=
  (by host_keep : W5 m ρ c (Proc.devRef .tc main_arg0) = W4 m ρ c (Proc.devRef .tc main_arg0)).trans (s4_arg0 m ρ c)
theorem s5_arg4 : W5 m ρ c (Proc.devRef .tc main_arg4) = m ((c : Thread nD τ).loc main_arg4) :=
  (by host_keep : W5 m ρ c (Proc.devRef .tc main_arg4) = W4 m ρ c (Proc.devRef .tc main_arg4)).trans (s4_arg4 m ρ c)
theorem s5_arg5 : W5 m ρ c (Proc.devRef .tc main_arg5) = m ((c : Thread nD τ).loc main_arg5) :=
  (by host_keep : W5 m ρ c (Proc.devRef .tc main_arg5) = W4 m ρ c (Proc.devRef .tc main_arg5)).trans (s4_arg5 m ρ c)
theorem s5_arg6 : W5 m ρ c (Proc.devRef .tc main_arg6) = m ((c : Thread nD τ).loc main_arg6) :=
  (by host_keep : W5 m ρ c (Proc.devRef .tc main_arg6) = W4 m ρ c (Proc.devRef .tc main_arg6)).trans (s4_arg6 m ρ c)
theorem s5_arg7 : W5 m ρ c (Proc.devRef .tc main_arg7) = m ((c : Thread nD τ).loc main_arg7) :=
  (by host_keep : W5 m ρ c (Proc.devRef .tc main_arg7) = W4 m ρ c (Proc.devRef .tc main_arg7)).trans (s4_arg7 m ρ c)
theorem s5_v5 : W5 m ρ c (Proc.devRef .tc main_v5) = Cert.Glue.srcVec (m ((c : Thread nD τ).loc main_arg1)) :=
  (by host_keep : W5 m ρ c (Proc.devRef .tc main_v5) = W4 m ρ c (Proc.devRef .tc main_v5)).trans (s4_v5 m ρ c)
theorem s5_v6 : W5 m ρ c (Proc.devRef .tc main_v6) = Cert.Glue.dstVec (m ((c : Thread nD τ).loc main_arg1)) :=
  (by host_keep : W5 m ρ c (Proc.devRef .tc main_v6) = W4 m ρ c (Proc.devRef .tc main_v6)).trans (s4_v6 m ρ c)
theorem s5_v32 : W5 m ρ c (Proc.devRef .tc main_v32) = Cert.Glue.nrm Ideal (m ((c : Thread nD τ).loc main_arg1)) :=
  (by host_keep : W5 m ρ c (Proc.devRef .tc main_v32) = W4 m ρ c (Proc.devRef .tc main_v32)).trans (s4_v32 m ρ c)
theorem s5_v46 : W5 m ρ c (Proc.devRef .tc main_v46) = Cert.Glue.agg (F := Ideal) (Host.dotGeneral (F := Ideal) (φ₁ := .f32) (φ₂ := .f32) (DotDims.plain 100000 128 128) none (m ((c : Thread nD τ).loc main_arg0)) (m ((c : Thread nD τ).loc main_arg2))) (Cert.Glue.srcVec (m ((c : Thread nD τ).loc main_arg1))) (Cert.Glue.dstVec (m ((c : Thread nD τ).loc main_arg1))) (Cert.Glue.nrm Ideal (m ((c : Thread nD τ).loc main_arg1))) := by
  have raw : W5 m ρ c (Proc.devRef .tc main_v46) = Cert.Glue.agg (F := Ideal) (W4 m ρ c (Proc.devRef .tc main_v33)) (W4 m ρ c (Proc.devRef .tc main_v5)) (W4 m ρ c (Proc.devRef .tc main_v6)) (W4 m ρ c (Proc.devRef .tc main_v32)) := by
    show StableHlo.after hostOps1 (W4 m ρ c) (Proc.devRef .tc main_v46) = _
    after_results_simp
    rfl
  rw [raw, s4_v33, s4_v5, s4_v6, s4_v32]
theorem s5_v47 : W5 m ρ c (Proc.devRef .tc main_v47) = shapeCast S1x128 (m ((c : Thread nD τ).loc main_arg3)) shapeCasts_S128_S1x128 := by
  have raw : W5 m ρ c (Proc.devRef .tc main_v47) = shapeCast S1x128 (W4 m ρ c (Proc.devRef .tc main_arg3)) shapeCasts_S128_S1x128 := by
    show StableHlo.after hostOps1 (W4 m ρ c) (Proc.devRef .tc main_v47) = _
    after_results_simp
    rfl
  rw [raw, s4_arg3]

/-! ## After launch 1 -/

theorem s6_arg0 : W6 m ρ c (Proc.devRef .tc main_arg0) = m ((c : Thread nD τ).loc main_arg0) :=
  (W6_arr m ρ c 2).trans (((dat1 (V5 m ρ) c).arrAt_in 2 rfl _).trans ((A_eq1 (V5 m ρ) c 2).trans (s5_arg0 m ρ c)))
theorem s6_arg4 : W6 m ρ c (Proc.devRef .tc main_arg4) = m ((c : Thread nD τ).loc main_arg4) :=
  (W6_of_ne m ρ c main_arg4 (by decide)).trans (s5_arg4 m ρ c)
theorem s6_arg5 : W6 m ρ c (Proc.devRef .tc main_arg5) = m ((c : Thread nD τ).loc main_arg5) :=
  (W6_of_ne m ρ c main_arg5 (by decide)).trans (s5_arg5 m ρ c)
theorem s6_arg6 : W6 m ρ c (Proc.devRef .tc main_arg6) = m ((c : Thread nD τ).loc main_arg6) :=
  (W6_of_ne m ρ c main_arg6 (by decide)).trans (s5_arg6 m ρ c)
theorem s6_arg7 : W6 m ρ c (Proc.devRef .tc main_arg7) = m ((c : Thread nD τ).loc main_arg7) :=
  (W6_of_ne m ρ c main_arg7 (by decide)).trans (s5_arg7 m ρ c)
theorem s6_v5 : W6 m ρ c (Proc.devRef .tc main_v5) = Cert.Glue.srcVec (m ((c : Thread nD τ).loc main_arg1)) :=
  (W6_of_ne m ρ c main_v5 (by decide)).trans (s5_v5 m ρ c)
theorem s6_v6 : W6 m ρ c (Proc.devRef .tc main_v6) = Cert.Glue.dstVec (m ((c : Thread nD τ).loc main_arg1)) :=
  (W6_of_ne m ρ c main_v6 (by decide)).trans (s5_v6 m ρ c)
theorem s6_v32 : W6 m ρ c (Proc.devRef .tc main_v32) = Cert.Glue.nrm Ideal (m ((c : Thread nD τ).loc main_arg1)) :=
  (W6_of_ne m ρ c main_v32 (by decide)).trans (s5_v32 m ρ c)
theorem s6_v48 : W6 m ρ c (Proc.devRef .tc main_v48) = out1 m c := by
  refine (W6_arr m ρ c 3).trans ((Region1.final (V5 m ρ) c).trans ?_)
  show addf (F := Ideal) (s := S100000x128) (φ := .f32) (Cert.RowBias.addRow (M := 100000) (N := 128) (W5 m ρ c (Proc.devRef .tc main_v46)) (W5 m ρ c (Proc.devRef .tc main_v47))) (W5 m ρ c (Proc.devRef .tc main_arg0)) = _
  rw [s5_v46, s5_v47, s5_arg0]
  rfl

/-! ## After launch 2 -/

theorem s7_v48 : W7 m ρ c (Proc.devRef .tc main_v48) = out1 m c :=
  (W7_arr m ρ c 0).trans (((dat2 (V6 m ρ) c).arrAt_in 0 rfl _).trans ((A_eq2 (V6 m ρ) c 0).trans (s6_v48 m ρ c)))
theorem s7_arg0 : W7 m ρ c (Proc.devRef .tc main_arg0) = m ((c : Thread nD τ).loc main_arg0) :=
  (W7_of_ne m ρ c main_arg0 (by decide)).trans (s6_arg0 m ρ c)
theorem s7_arg5 : W7 m ρ c (Proc.devRef .tc main_arg5) = m ((c : Thread nD τ).loc main_arg5) :=
  (W7_of_ne m ρ c main_arg5 (by decide)).trans (s6_arg5 m ρ c)
theorem s7_arg6 : W7 m ρ c (Proc.devRef .tc main_arg6) = m ((c : Thread nD τ).loc main_arg6) :=
  (W7_of_ne m ρ c main_arg6 (by decide)).trans (s6_arg6 m ρ c)
theorem s7_arg7 : W7 m ρ c (Proc.devRef .tc main_arg7) = m ((c : Thread nD τ).loc main_arg7) :=
  (W7_of_ne m ρ c main_arg7 (by decide)).trans (s6_arg7 m ρ c)
theorem s7_v5 : W7 m ρ c (Proc.devRef .tc main_v5) = Cert.Glue.srcVec (m ((c : Thread nD τ).loc main_arg1)) :=
  (W7_of_ne m ρ c main_v5 (by decide)).trans (s6_v5 m ρ c)
theorem s7_v6 : W7 m ρ c (Proc.devRef .tc main_v6) = Cert.Glue.dstVec (m ((c : Thread nD τ).loc main_arg1)) :=
  (W7_of_ne m ρ c main_v6 (by decide)).trans (s6_v6 m ρ c)
theorem s7_v32 : W7 m ρ c (Proc.devRef .tc main_v32) = Cert.Glue.nrm Ideal (m ((c : Thread nD τ).loc main_arg1)) :=
  (W7_of_ne m ρ c main_v32 (by decide)).trans (s6_v32 m ρ c)
theorem s7_v49 : W7 m ρ c (Proc.devRef .tc main_v49) = Host.dotGeneral (F := Ideal) (φ₁ := .f32) (φ₂ := .f32) (DotDims.plain 100000 128 128) none (out1 m c) (m ((c : Thread nD τ).loc main_arg4)) := by
  refine (W7_arr m ρ c 2).trans ((Region2.final (V6 m ρ) c).trans ?_)
  show Host.dotGeneral (F := Ideal) (φ₁ := .f32) (φ₂ := .f32) (DotDims.plain 100000 128 128) none (W6 m ρ c (Proc.devRef .tc main_v48)) (W6 m ρ c (Proc.devRef .tc main_arg4)) = _
  rw [s6_v48, s6_arg4]

/-! ## After the host operations between launches 2 and 3 -/

theorem s8_v48 : W8 m ρ c (Proc.devRef .tc main_v48) = out1 m c :=
  (by host_keep : W8 m ρ c (Proc.devRef .tc main_v48) = W7 m ρ c (Proc.devRef .tc main_v48)).trans (s7_v48 m ρ c)
theorem s8_arg0 : W8 m ρ c (Proc.devRef .tc main_arg0) = m ((c : Thread nD τ).loc main_arg0) :=
  (by host_keep : W8 m ρ c (Proc.devRef .tc main_arg0) = W7 m ρ c (Proc.devRef .tc main_arg0)).trans (s7_arg0 m ρ c)
theorem s8_arg6 : W8 m ρ c (Proc.devRef .tc main_arg6) = m ((c : Thread nD τ).loc main_arg6) :=
  (by host_keep : W8 m ρ c (Proc.devRef .tc main_arg6) = W7 m ρ c (Proc.devRef .tc main_arg6)).trans (s7_arg6 m ρ c)
theorem s8_arg7 : W8 m ρ c (Proc.devRef .tc main_arg7) = m ((c : Thread nD τ).loc main_arg7) :=
  (by host_keep : W8 m ρ c (Proc.devRef .tc main_arg7) = W7 m ρ c (Proc.devRef .tc main_arg7)).trans (s7_arg7 m ρ c)
theorem s8_v5 : W8 m ρ c (Proc.devRef .tc main_v5) = Cert.Glue.srcVec (m ((c : Thread nD τ).loc main_arg1)) :=
  (by host_keep : W8 m ρ c (Proc.devRef .tc main_v5) = W7 m ρ c (Proc.devRef .tc main_v5)).trans (s7_v5 m ρ c)
theorem s8_v6 : W8 m ρ c (Proc.devRef .tc main_v6) = Cert.Glue.dstVec (m ((c : Thread nD τ).loc main_arg1)) :=
  (by host_keep : W8 m ρ c (Proc.devRef .tc main_v6) = W7 m ρ c (Proc.devRef .tc main_v6)).trans (s7_v6 m ρ c)
theorem s8_v32 : W8 m ρ c (Proc.devRef .tc main_v32) = Cert.Glue.nrm Ideal (m ((c : Thread nD τ).loc main_arg1)) :=
  (by host_keep : W8 m ρ c (Proc.devRef .tc main_v32) = W7 m ρ c (Proc.devRef .tc main_v32)).trans (s7_v32 m ρ c)
theorem s8_v62 : W8 m ρ c (Proc.devRef .tc main_v62) = Cert.Glue.agg (F := Ideal) (Host.dotGeneral (F := Ideal) (φ₁ := .f32) (φ₂ := .f32) (DotDims.plain 100000 128 128) none (out1 m c) (m ((c : Thread nD τ).loc main_arg4))) (Cert.Glue.srcVec (m ((c : Thread nD τ).loc main_arg1))) (Cert.Glue.dstVec (m ((c : Thread nD τ).loc main_arg1))) (Cert.Glue.nrm Ideal (m ((c : Thread nD τ).loc main_arg1))) := by
  have raw : W8 m ρ c (Proc.devRef .tc main_v62) = Cert.Glue.agg (F := Ideal) (W7 m ρ c (Proc.devRef .tc main_v49)) (W7 m ρ c (Proc.devRef .tc main_v5)) (W7 m ρ c (Proc.devRef .tc main_v6)) (W7 m ρ c (Proc.devRef .tc main_v32)) := by
    show StableHlo.after hostOps3 (W7 m ρ c) (Proc.devRef .tc main_v62) = _
    after_results_simp
    rfl
  rw [raw, s7_v49, s7_v5, s7_v6, s7_v32]
theorem s8_v63 : W8 m ρ c (Proc.devRef .tc main_v63) = shapeCast S1x128 (m ((c : Thread nD τ).loc main_arg5)) shapeCasts_S128_S1x128 := by
  have raw : W8 m ρ c (Proc.devRef .tc main_v63) = shapeCast S1x128 (W7 m ρ c (Proc.devRef .tc main_arg5)) shapeCasts_S128_S1x128 := by
    show StableHlo.after hostOps3 (W7 m ρ c) (Proc.devRef .tc main_v63) = _
    after_results_simp
    rfl
  rw [raw, s7_arg5]

/-! ## After launch 3 -/

theorem s9_arg0 : W9 m ρ c (Proc.devRef .tc main_arg0) = m ((c : Thread nD τ).loc main_arg0) :=
  (W9_of_ne m ρ c main_arg0 (by decide)).trans (s8_arg0 m ρ c)
theorem s9_arg6 : W9 m ρ c (Proc.devRef .tc main_arg6) = m ((c : Thread nD τ).loc main_arg6) :=
  (W9_of_ne m ρ c main_arg6 (by decide)).trans (s8_arg6 m ρ c)
theorem s9_arg7 : W9 m ρ c (Proc.devRef .tc main_arg7) = m ((c : Thread nD τ).loc main_arg7) :=
  (W9_of_ne m ρ c main_arg7 (by decide)).trans (s8_arg7 m ρ c)
theorem s9_v5 : W9 m ρ c (Proc.devRef .tc main_v5) = Cert.Glue.srcVec (m ((c : Thread nD τ).loc main_arg1)) :=
  (W9_of_ne m ρ c main_v5 (by decide)).trans (s8_v5 m ρ c)
theorem s9_v6 : W9 m ρ c (Proc.devRef .tc main_v6) = Cert.Glue.dstVec (m ((c : Thread nD τ).loc main_arg1)) :=
  (W9_of_ne m ρ c main_v6 (by decide)).trans (s8_v6 m ρ c)
theorem s9_v32 : W9 m ρ c (Proc.devRef .tc main_v32) = Cert.Glue.nrm Ideal (m ((c : Thread nD τ).loc main_arg1)) :=
  (W9_of_ne m ρ c main_v32 (by decide)).trans (s8_v32 m ρ c)
theorem s9_v64 : W9 m ρ c (Proc.devRef .tc main_v64) = out2 m c := by
  refine (W9_arr m ρ c 3).trans ((Region3.final (V8 m ρ) c).trans ?_)
  show addf (F := Ideal) (s := S100000x128) (φ := .f32) (Cert.RowBias.addRow (M := 100000) (N := 128) (W8 m ρ c (Proc.devRef .tc main_v62)) (W8 m ρ c (Proc.devRef .tc main_v63))) (W8 m ρ c (Proc.devRef .tc main_v48)) = _
  rw [s8_v62, s8_v63, s8_v48]
  rfl

/-! ## After launch 4 -/

theorem s10_v64 : W10 m ρ c (Proc.devRef .tc main_v64) = out2 m c :=
  (W10_arr m ρ c 0).trans (((dat4 (V9 m ρ) c).arrAt_in 0 rfl _).trans ((A_eq4 (V9 m ρ) c 0).trans (s9_v64 m ρ c)))
theorem s10_arg0 : W10 m ρ c (Proc.devRef .tc main_arg0) = m ((c : Thread nD τ).loc main_arg0) :=
  (W10_of_ne m ρ c main_arg0 (by decide)).trans (s9_arg0 m ρ c)
theorem s10_arg7 : W10 m ρ c (Proc.devRef .tc main_arg7) = m ((c : Thread nD τ).loc main_arg7) :=
  (W10_of_ne m ρ c main_arg7 (by decide)).trans (s9_arg7 m ρ c)
theorem s10_v5 : W10 m ρ c (Proc.devRef .tc main_v5) = Cert.Glue.srcVec (m ((c : Thread nD τ).loc main_arg1)) :=
  (W10_of_ne m ρ c main_v5 (by decide)).trans (s9_v5 m ρ c)
theorem s10_v6 : W10 m ρ c (Proc.devRef .tc main_v6) = Cert.Glue.dstVec (m ((c : Thread nD τ).loc main_arg1)) :=
  (W10_of_ne m ρ c main_v6 (by decide)).trans (s9_v6 m ρ c)
theorem s10_v32 : W10 m ρ c (Proc.devRef .tc main_v32) = Cert.Glue.nrm Ideal (m ((c : Thread nD τ).loc main_arg1)) :=
  (W10_of_ne m ρ c main_v32 (by decide)).trans (s9_v32 m ρ c)
theorem s10_v65 : W10 m ρ c (Proc.devRef .tc main_v65) = Host.dotGeneral (F := Ideal) (φ₁ := .f32) (φ₂ := .f32) (DotDims.plain 100000 128 128) none (out2 m c) (m ((c : Thread nD τ).loc main_arg6)) := by
  refine (W10_arr m ρ c 2).trans ((Region4.final (V9 m ρ) c).trans ?_)
  show Host.dotGeneral (F := Ideal) (φ₁ := .f32) (φ₂ := .f32) (DotDims.plain 100000 128 128) none (W9 m ρ c (Proc.devRef .tc main_v64)) (W9 m ρ c (Proc.devRef .tc main_arg6)) = _
  rw [s9_v64, s9_arg6]

/-! ## After the host operations between launches 4 and 5 -/

theorem s11_v64 : W11 m ρ c (Proc.devRef .tc main_v64) = out2 m c :=
  (by host_keep : W11 m ρ c (Proc.devRef .tc main_v64) = W10 m ρ c (Proc.devRef .tc main_v64)).trans (s10_v64 m ρ c)
theorem s11_arg0 : W11 m ρ c (Proc.devRef .tc main_arg0) = m ((c : Thread nD τ).loc main_arg0) :=
  (by host_keep : W11 m ρ c (Proc.devRef .tc main_arg0) = W10 m ρ c (Proc.devRef .tc main_arg0)).trans (s10_arg0 m ρ c)
theorem s11_v78 : W11 m ρ c (Proc.devRef .tc main_v78) = Cert.Glue.agg (F := Ideal) (Host.dotGeneral (F := Ideal) (φ₁ := .f32) (φ₂ := .f32) (DotDims.plain 100000 128 128) none (out2 m c) (m ((c : Thread nD τ).loc main_arg6))) (Cert.Glue.srcVec (m ((c : Thread nD τ).loc main_arg1))) (Cert.Glue.dstVec (m ((c : Thread nD τ).loc main_arg1))) (Cert.Glue.nrm Ideal (m ((c : Thread nD τ).loc main_arg1))) := by
  have raw : W11 m ρ c (Proc.devRef .tc main_v78) = Cert.Glue.agg (F := Ideal) (W10 m ρ c (Proc.devRef .tc main_v65)) (W10 m ρ c (Proc.devRef .tc main_v5)) (W10 m ρ c (Proc.devRef .tc main_v6)) (W10 m ρ c (Proc.devRef .tc main_v32)) := by
    show StableHlo.after hostOps5 (W10 m ρ c) (Proc.devRef .tc main_v78) = _
    after_results_simp
    rfl
  rw [raw, s10_v65, s10_v5, s10_v6, s10_v32]
theorem s11_v79 : W11 m ρ c (Proc.devRef .tc main_v79) = shapeCast S1x128 (m ((c : Thread nD τ).loc main_arg7)) shapeCasts_S128_S1x128 := by
  have raw : W11 m ρ c (Proc.devRef .tc main_v79) = shapeCast S1x128 (W10 m ρ c (Proc.devRef .tc main_arg7)) shapeCasts_S128_S1x128 := by
    show StableHlo.after hostOps5 (W10 m ρ c) (Proc.devRef .tc main_v79) = _
    after_results_simp
    rfl
  rw [raw, s10_arg7]

/-! ## After launch 5 -/

theorem s12_arg0 : W12 m ρ c (Proc.devRef .tc main_arg0) = m ((c : Thread nD τ).loc main_arg0) :=
  (W12_of_ne m ρ c main_arg0 (by decide)).trans (s11_arg0 m ρ c)
theorem s12_v80 : W12 m ρ c (Proc.devRef .tc main_v80) = out3 m c := by
  refine (W12_arr m ρ c 3).trans ((Region5.final (V11 m ρ) c).trans ?_)
  show addf (F := Ideal) (s := S100000x128) (φ := .f32) (Cert.RowBias.addRow (M := 100000) (N := 128) (W11 m ρ c (Proc.devRef .tc main_v78)) (W11 m ρ c (Proc.devRef .tc main_v79))) (W11 m ρ c (Proc.devRef .tc main_v64)) = _
  rw [s11_v78, s11_v79, s11_v64]
  rfl

/-! ## After launch 6 -/

theorem s13_v81 : W13 m ρ c (Proc.devRef .tc main_v81) = addf (F := Ideal) (s := S100000x128) (φ := .f32) (out3 m c) (m ((c : Thread nD τ).loc main_arg0)) := by
  refine (W13_arr m ρ c 2).trans ((Region6.final (V12 m ρ) c).trans ?_)
  show addf (F := Ideal) (s := S100000x128) (φ := .f32) (W12 m ρ c (Proc.devRef .tc main_v80)) (W12 m ρ c (Proc.devRef .tc main_arg0)) = _
  rw [s12_v80, s12_arg0]

/-! ## The result -/

/-- After the last launch the result buffer holds the network of the eight argument arrays. -/
theorem result_eq : W13 m ρ c (Proc.devRef .tc main_v81)
    = Cert.Glue.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [s13_v81]
  unfold out3 out2 out1 Cert.Glue.net
  rw [Cert.Glue.klayer_eq, Cert.Glue.klayer_eq, Cert.Glue.klayer_eq]

end Cert.KernelIdeal.Chain

end
-- ==== Proof.RefValue.lean ====
/-
  The host program's result, as the network of the argument arrays.

  The host program's run leaves its result buffer at the composed term of its 108 operations.  That term is,
  reading the operations in order, exactly the network: the edge vectors and the norm from the edge list, three
  layers (product, gather, scale, scatter-add, bias, residual) and the final residual.
-/
import proofs.«106614_j46462956208753_1_alg».proof.Proof.RefRun
import proofs.«106614_j46462956208753_1_alg».proof.Proof.Glue

set_option maxRecDepth 16384

noncomputable section

namespace Cert.ReferenceIdeal.RefValue

open Cert.ReferenceIdeal Idealize.ShloMosaic Idealize.ShloMosaic.TcCoe Idealize.SL.Sem

/-- The composed term of the host program's operations is the network of the eight argument arrays. -/
theorem res_eq (m : (ℓ : Loc nD τ sig) → Buf (Elt Ideal) ℓ) (c : Dev nD) :
    Cert.ReferenceIdeal.ValueP.res_main_v87 (F := Ideal) m c
      = Cert.Glue.net (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v87 Cert.Glue.net Cert.Glue.layer Cert.Glue.agg Cert.Glue.nrm Cert.Glue.dinv
    Cert.Glue.deg Cert.Glue.wrap Cert.Glue.zeroNodes Cert.Glue.wts Cert.Glue.srcVec Cert.Glue.dstVec
  rfl

end Cert.ReferenceIdeal.RefValue

end
-- ==== Proof.lean ====
/-
  The kernel's program and its plain reference compute one function of their eight argument arrays.

  Both are a three-layer graph-convolution network with residuals: from the edge list, the source and destination
  vectors (with self loops appended), the symmetric normalisation dinv[src] · weight · dinv[dst]; per layer
      x  ↦  scatter-add over destinations of ( (x · W)[src] · norm )  +  bias  +  x ;
  and the input added once more at the end.  The reference does every step with host operations.  The kernel's
  program does the product x · W, the "+ bias + x" and the final "+ input" in tiled launches (blocks of 5000 rows, the
  product's operands rounded to bf16, which is the identity at the exact values) and the edge steps with the same
  host operations as the reference.

  * A product computed block of rows by block of rows is the whole product: a row of x · W depends on that row of x only.
  * "+ bias + x" and the final sum are entry-by-entry, so computed block by block they are the whole-array functions;
    adding the bias as a 1×128 row on every row is the host's spread of the bias vector over the rows.
  * The host operations between the launches are the reference's own, applied to equal values.
  No law of the extended reals beyond these rearrangements of which entries are read is used; the precondition is not needed
  for the values, and the three frames are the generated ones (the reference's is its run with the result dropped).
  The ideal pass rewrote nothing, so the sanctioned-idealization claim is trivial.
-/
import proofs.«106614_j46462956208753_1_alg».proof.Defs
import proofs.«106614_j46462956208753_1_alg».proof.Proof.Gen.Kernel
import proofs.«106614_j46462956208753_1_alg».proof.Proof.Gen.Kernel.Frame
import proofs.«106614_j46462956208753_1_alg».proof.Proof.Gen.KernelIdeal
import proofs.«106614_j46462956208753_1_alg».proof.Proof.Gen.KernelIdeal.Frame
import proofs.«106614_j46462956208753_1_alg».proof.Proof.Gen.ReferenceIdeal
import proofs.«106614_j46462956208753_1_alg».proof.Proof.Gen.Pre_finite_inputs
import proofs.«106614_j46462956208753_1_alg».proof.Proof.RunValue
import proofs.«106614_j46462956208753_1_alg».proof.Proof.Chain
import proofs.«106614_j46462956208753_1_alg».proof.Proof.RefRun
import proofs.«106614_j46462956208753_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the network of the argument arrays. -/
theorem algebraic : Cert.algebraic_KernelIdeal_ReferenceIdeal := by
  intro m ρ m' ρ' _ hagree
  refine ⟨fun c => Cert.Glue.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
